-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x1024x1024 .f32) (main_arg1 : FVec F S1024x3072 .f32) (main_arg2 : FVec F S3072 .f32) (main_arg3 : FVec F S1024x1024 .f32) (main_arg4 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x1024x1024 : Shape := ⟨3, ![4, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S4x1024x3072 : Shape := ⟨3, ![4, 1024, 3072]⟩
abbrev S4x1024x16x64 : Shape := ⟨4, ![4, 1024, 16, 64]⟩
abbrev S4x16x1024x64 : Shape := ⟨4, ![4, 16, 1024, 64]⟩
abbrev S64x1024x64 : Shape := ⟨3, ![64, 1024, 64]⟩
abbrev S1x1024x64 : Shape := ⟨3, ![1, 1024, 64]⟩
abbrev S1024x64 : Shape := ⟨2, ![1024, 64]⟩
abbrev S64x1024 : Shape := ⟨2, ![64, 1024]⟩
abbrev S1024x1 : Shape := ⟨2, ![1024, 1]⟩
abbrev S1x1024 : Shape := ⟨2, ![1, 1024]⟩

abbrev nBuf : Space → Nat
  | .hbm => 31
  | .vmem => 20
  | .smem => 0
  | _ => 0

abbrev bufTy : (tb : Table) → Fin (tcTables nBuf tb) → BufTy
  | .hbm, ⟨0, _⟩ => ⟨S4x1024x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .bf16⟩
  | .hbm, ⟨6, _⟩ => ⟨S1024x1024, .bf16⟩
  | .hbm, ⟨7, _⟩ => ⟨S4096x1024, .f32⟩
  | .hbm, ⟨8, _⟩ => ⟨S1x3072, .f32⟩
  | .hbm, ⟨9, _⟩ => ⟨S4096x3072, .bf16⟩
  | .hbm, ⟨10, _⟩ => ⟨S4x1024x3072, .bf16⟩
  | .hbm, ⟨11, _⟩ => ⟨S4x1024x1024, .bf16⟩
  | .hbm, ⟨12, _⟩ => ⟨S4x1024x1024, .bf16⟩
  | .hbm, ⟨13, _⟩ => ⟨S4x1024x1024, .bf16⟩
  | .hbm, ⟨14, _⟩ => ⟨S4x1024x16x64, .bf16⟩
  | .hbm, ⟨15, _⟩ => ⟨S4x16x1024x64, .bf16⟩
  | .hbm, ⟨16, _⟩ => ⟨S64x1024x64, .bf16⟩
  | .hbm, ⟨17, _⟩ => ⟨S4x1024x16x64, .bf16⟩
  | .hbm, ⟨18, _⟩ => ⟨S4x16x1024x64, .bf16⟩
  | .hbm, ⟨19, _⟩ => ⟨S64x1024x64, .bf16⟩
  | .hbm, ⟨20, _⟩ => ⟨S4x1024x16x64, .bf16⟩
  | .hbm, ⟨21, _⟩ => ⟨S4x16x1024x64, .bf16⟩
  | .hbm, ⟨22, _⟩ => ⟨S64x1024x64, .bf16⟩
  | .hbm, ⟨23, _⟩ => ⟨S64x1024x64, .bf16⟩
  | .hbm, ⟨24, _⟩ => ⟨S4x16x1024x64, .bf16⟩
  | .hbm, ⟨25, _⟩ => ⟨S4x1024x16x64, .bf16⟩
  | .hbm, ⟨26, _⟩ => ⟨S4x1024x1024, .bf16⟩
  | .hbm, ⟨27, _⟩ => ⟨S4096x1024, .bf16⟩
  | .hbm, ⟨28, _⟩ => ⟨S1x1024, .f32⟩
  | .hbm, ⟨29, _⟩ => ⟨S4096x1024, .f32⟩
  | .hbm, ⟨30, _⟩ => ⟨S4x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S4x1024x1024_S4096x1024 : S4x1024x1024.ShapeCasts S4096x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S4x1024x3072 : S4096x3072.ShapeCasts S4x1024x3072
  slices_S4x1024x3072_S4x1024x1024_0_0_0 : S4x1024x3072.Slices ![0, 0, 0] S4x1024x1024
  slices_S4x1024x3072_S4x1024x1024_0_0_1024 : S4x1024x3072.Slices ![0, 0, 1024] S4x1024x1024
  slices_S4x1024x3072_S4x1024x1024_0_0_2048 : S4x1024x3072.Slices ![0, 0, 2048] S4x1024x1024
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  shapeCasts_S4x16x1024x64_S64x1024x64 : S4x16x1024x64.ShapeCasts S64x1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S64x1024x64_S4x16x1024x64 : S64x1024x64.ShapeCasts S4x16x1024x64
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S4x1024x1024 : S4096x1024.ShapeCasts S4x1024x1024
  dot_S512x1024_S1024x3072_S512x3072_1_0_0_1_n_n_wf : DotDims.WF S512x1024 S1024x3072 S512x3072 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x1024x64.size a
  hwx1_0 : ∀ i : grid1.Coords, EltTy.bits .bf16 = 32 ∨ (Rect.block (s := S64x1024x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S64x1024x64.size a
  hwx1_1 : ∀ i : grid1.Coords, EltTy.bits .bf16 = 32 ∨ (Rect.block (s := S64x1024x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S64x1024x64.size a
  hwx1_2 : ∀ i : grid1.Coords, EltTy.bits .bf16 = 32 ∨ (Rect.block (s := S64x1024x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S64x1024x64.size a
  hwx1_3 : ∀ i : grid1.Coords, EltTy.bits .bf16 = 32 ∨ (Rect.block (s := S64x1024x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1024x1024 : Shape := ⟨3, ![4, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x1024x3072 : Shape := ⟨3, ![4, 1024, 3072]⟩
abbrev S1x1x3072 : Shape := ⟨3, ![1, 1, 3072]⟩
abbrev S4x1024x16x64 : Shape := ⟨4, ![4, 1024, 16, 64]⟩
abbrev S4x16x1024x64 : Shape := ⟨4, ![4, 16, 1024, 64]⟩
abbrev S4x16x1024x1024 : Shape := ⟨4, ![4, 16, 1024, 1024]⟩
abbrev S_ : Shape := ⟨0, ![]⟩
abbrev S1x1x1024x1024 : Shape := ⟨4, ![1, 1, 1024, 1024]⟩
abbrev S4x16x1024 : Shape := ⟨3, ![4, 16, 1024]⟩
abbrev S4x16x1024x1 : Shape := ⟨4, ![4, 16, 1024, 1]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x1024x3072, .f32⟩
  | .hbm, ⟨6, _⟩ => ⟨S1x1x3072, .f32⟩
  | .hbm, ⟨7, _⟩ => ⟨S4x1024x3072, .f32⟩
  | .hbm, ⟨8, _⟩ => ⟨S4x1024x3072, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .hbm, ⟨12, _⟩ => ⟨S4x1024x16x64, .f32⟩
  | .hbm, ⟨13, _⟩ => ⟨S4x16x1024x64, .f32⟩
  | .hbm, ⟨14, _⟩ => ⟨S4x1024x16x64, .f32⟩
  | .hbm, ⟨15, _⟩ => ⟨S4x16x1024x64, .f32⟩
  | .hbm, ⟨16, _⟩ => ⟨S4x1024x16x64, .f32⟩
  | .hbm, ⟨17, _⟩ => ⟨S4x16x1024x64, .f32⟩
  | .hbm, ⟨18, _⟩ => ⟨S4x16x1024x1024, .f32⟩
  | .hbm, ⟨19, _⟩ => ⟨S_, .f32⟩
  | .hbm, ⟨20, _⟩ => ⟨S_, .f32⟩
  | .hbm, ⟨21, _⟩ => ⟨S4x16x1024x1024, .f32⟩
  | .hbm, ⟨22, _⟩ => ⟨S4x16x1024x1024, .f32⟩
  | .hbm, ⟨23, _⟩ => ⟨S_, .f32⟩
  | .hbm, ⟨24, _⟩ => ⟨S1024x1024, .f32⟩
  | .hbm, ⟨25, _⟩ => ⟨S1024x1024, .i32⟩
  | .hbm, ⟨26, _⟩ => ⟨S_, .i32⟩
  | .hbm, ⟨27, _⟩ => ⟨S1024x1024, .i32⟩
  | .hbm, ⟨28, _⟩ => ⟨S1024x1024, .i32⟩
  | .hbm, ⟨29, _⟩ => ⟨S1024x1024, .i32⟩
  | .hbm, ⟨30, _⟩ => ⟨S1024x1024, .i1⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1x1x1024x1024, .f32⟩
  | .hbm, ⟨35, _⟩ => ⟨S4x16x1024x1024, .f32⟩
  | .hbm, ⟨36, _⟩ => ⟨S4x16x1024x1024, .f32⟩
  | .hbm, ⟨37, _⟩ => ⟨S_, .f32⟩
  | .hbm, ⟨38, _⟩ => ⟨S1x1x1024x1024, .f32⟩
  | .hbm, ⟨39, _⟩ => ⟨S1x1x1024x1024, .f32⟩
  | .hbm, ⟨40, _⟩ => ⟨S_, .f32⟩
  | .hbm, ⟨41, _⟩ => ⟨S1x1x1024x1024, .f32⟩
  | .hbm, ⟨42, _⟩ => ⟨S1x1x1024x1024, .f32⟩
  | .hbm, ⟨43, _⟩ => ⟨S4x16x1024x1024, .f32⟩
  | .hbm, ⟨44, _⟩ => ⟨S4x16x1024x1024, .f32⟩
  | .hbm, ⟨45, _⟩ => ⟨S_, .f32⟩
  | .hbm, ⟨46, _⟩ => ⟨S4x16x1024, .f32⟩
  | .hbm, ⟨47, _⟩ => ⟨S_, .f32⟩
  | .hbm, ⟨48, _⟩ => ⟨S4x16x1024, .f32⟩
  | .hbm, ⟨49, _⟩ => ⟨S4x16x1024, .f32⟩
  | .hbm, ⟨50, _⟩ => ⟨S4x16x1024x1, .f32⟩
  | .hbm, ⟨51, _⟩ => ⟨S4x16x1024x1024, .f32⟩
  | .hbm, ⟨52, _⟩ => ⟨S4x16x1024x1024, .f32⟩
  | .hbm, ⟨53, _⟩ => ⟨S4x16x1024x1024, .f32⟩
  | .hbm, ⟨54, _⟩ => ⟨S_, .f32⟩
  | .hbm, ⟨55, _⟩ => ⟨S4x16x1024, .f32⟩
  | .hbm, ⟨56, _⟩ => ⟨S4x16x1024x1, .f32⟩
  | .hbm, ⟨57, _⟩ => ⟨S4x16x1024x1024, .f32⟩
  | .hbm, ⟨58, _⟩ => ⟨S4x16x1024x1024, .f32⟩
  | .hbm, ⟨59, _⟩ => ⟨S4x16x1024x64, .f32⟩
  | .hbm, ⟨60, _⟩ => ⟨S4x1024x16x64, .f32⟩
  | .hbm, ⟨61, _⟩ => ⟨S4x1024x1024, .f32⟩
  | .hbm, ⟨62, _⟩ => ⟨S4x1024x1024, .f32⟩
  | .hbm, ⟨63, _⟩ => ⟨S1x1x1024, .f32⟩
  | .hbm, ⟨64, _⟩ => ⟨S4x1024x1024, .f32⟩
  | .hbm, ⟨65, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x1024x3072_0_1_2 : S1x1x3072.BroadcastsInDim S4x1024x3072 (![0, 1, 2] : Fin 3 → Fin S4x1024x3072.rank)
  slices_S4x1024x3072_S4x1024x1024_0_0_0 : S4x1024x3072.Slices ![0, 0, 0] S4x1024x1024
  slices_S4x1024x3072_S4x1024x1024_0_0_1024 : S4x1024x3072.Slices ![0, 0, 1024] S4x1024x1024
  slices_S4x1024x3072_S4x1024x1024_0_0_2048 : S4x1024x3072.Slices ![0, 0, 2048] S4x1024x1024
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S4x16x1024x1024_0_1_2_3 : S1x1x1024x1024.BroadcastsInDim S4x16x1024x1024 (![0, 1, 2, 3] : Fin 4 → Fin S4x16x1024x1024.rank)
  bcast_S_S1x1x1024x1024 : S_.BroadcastsInDim S1x1x1024x1024 (![] : Fin 0 → Fin S1x1x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  dot_S4x1024x1024_S1024x3072_S4x1024x3072_2_0_01_1_n_n_wf : DotDims.WF S4x1024x1024 S1024x3072 S4x1024x3072 [2] [0] [0, 1] [1] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]
  dot_S4x1024x1024_S1024x1024_S4x1024x1024_2_0_01_1_n_n_wf : DotDims.WF S4x1024x1024 S1024x1024 S4x1024x1024 [2] [0] [0, 1] [1] [] []

variable [Facts₀]

def dot_S4x1024x1024_S1024x3072_S4x1024x3072_2_0_01_1_n_n : DotDims S4x1024x1024 S1024x3072 S4x1024x3072 where
  lhsContracting := [2]
  rhsContracting := [0]
  lhsNonContracting := [0, 1]
  rhsNonContracting := [1]
  lhsBatch := []
  rhsBatch := []
  wf := dot_S4x1024x1024_S1024x3072_S4x1024x3072_2_0_01_1_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf
def dot_S4x1024x1024_S1024x1024_S4x1024x1024_2_0_01_1_n_n : DotDims S4x1024x1024 S1024x1024 S4x1024x1024 where
  lhsContracting := [2]
  rhsContracting := [0]
  lhsNonContracting := [0, 1]
  rhsNonContracting := [1]
  lhsBatch := []
  rhsBatch := []
  wf := dot_S4x1024x1024_S1024x1024_S4x1024x1024_2_0_01_1_n_n_wf

class Facts : Prop extends Facts₀ where

variable [Facts]
-- ==== Proof.KernelRun.lean ====
/-
  The kernel program's run with its result named. Every weakly fair execution of the three-region program
  terminates without a fault, leaves the five argument arrays as launched, and leaves the result array holding
  the contents at the last boundary of the fold through the program: the launch memory, pushed through each stretch
  of host operations and through each region's write-backs in turn (`W7`).
-/
import proofs.«128924_j63247688401034_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the seven segments (four stretches of host operations around three regions): the last thread state
    holds every unscoped buffer at the last boundary's contents, read here at the result and at the five arguments. -/
theorem run : θ_run defs (onTc (τ := τ) (main (F := F))) ⟨m, fun _ => 0, ρ⟩ (fun r => ∀ c : Dev nD,
      r.2.mem ((c.tc : Thread nD τ).loc main_v25) = W7 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v25 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Whole

end
-- ==== Proof.Spec.lean ====
/-
  The mathematics both programs compute, written once over plain index functions into the extended reals.

  * `affine a w b` is a linear layer: entry (r, e) is the row r of `a` against column e of `w`, plus the bias entry e.
  * `maskedScore q k r c` is one head's scaled dot product of query row r and key row c where c ≤ r, and the
    finite mask value -10000 where c > r (the word 0xC61C4000); the scale is the dyadic 1/8 (the word 0x3E000000).
  * `softmaxRow w` normalises a row: exp (w c - max w) over the sum of those exponentials, the maximum taken from -∞.
  * `attnHead q k v r d` is that row of weights against column d of the values.
-/
import Idealize.ShloMosaic.PureOps.Ideal
import Idealize.ShloMosaic.Lib.ValueIdx

noncomputable section

namespace Cert.Spec

open Idealize.ShloMosaic Idealize.ShloMosaic.ValueIdx

/-- A linear layer: `(a · w) (r, e) + b (0, e)`, the contraction over the shared axis of extent `K`. -/
def affine {M K N : Nat} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, a (ix2 (i 0) k) * w (ix2 k (i 1))) + b (ix2 (0 : Fin 1) (i 1))

/-- The largest entry of a row of 1024 extended reals, starting from -∞ (the word 0xFF800000). -/
def rowMax (w : Fin 1024 → EReal) : EReal :=
  (Finset.univ : Finset (Fin 1024)).fold max (Ideal.ofBits .f32 0xFF800000#32) w

/-- The softmax of a row: each entry's exponential, shifted by the row's maximum, over the sum of them all. -/
def softmaxRow (w : Fin 1024 → EReal) (c : Fin 1024) : EReal :=
  Ideal.div (Ideal.exp (w c - rowMax w)) (∑ c' : Fin 1024, Ideal.exp (w c' - rowMax w))

/-- One head's causal score of query row `r` against key row `c`: the dot product over the 64 features times 1/8
    on and below the diagonal, the mask value -10000 above it. -/
def maskedScore (q k : Fin 1024 → Fin 64 → EReal) (r c : Fin 1024) : EReal :=
  if c.val ≤ r.val then (∑ d : Fin 64, q r d * k c d) * Ideal.ofBits .f32 0x3E000000#32
  else Ideal.ofBits .f32 0xC61C4000#32

/-- One head of causal attention: the softmax weights of row `r` against column `d` of the values. -/
def attnHead (q k v : Fin 1024 → Fin 64 → EReal) (r : Fin 1024) (d : Fin 64) : EReal :=
  ∑ c : Fin 1024, softmaxRow (maskedScore q k r) c * v c d

end Cert.Spec

end
-- ==== Proof.LinearBlocks.lean ====
/-
  The two linear layers of the kernel program, block by block and then as whole arrays.

  Regions 0 and 2 of the program are the same linear layer at two sizes. Each of the 8 grid points t takes rows
  512·t … 512·t + 511 of the left array, the whole weight array and the whole one-row bias, and writes back the
  512 rows of (rows · weights + bias). Read at the extended reals the format conversions are the identity, so a
  block's entry (p, q) is the sum over the shared axis of products plus the bias entry q, and since the 8 row blocks
  tile the output, the array a region leaves is the linear layer of the three arrays it found.
-/
import proofs.«128924_j63247688401034_2_alg».proof.Proof.Gen.KernelIdeal.Frame
import proofs.«128924_j63247688401034_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinearBlocks

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The arithmetic of one block

A block of the first linear layer is a 512 × 1024 array of left rows, the whole 1024 × 3072 weight array and the
one-row bias. Its entry (p, q) is the sum over the shared axis k of (row p at k) · (weight at (k, q)), plus the bias
entry q. At the extended reals the format conversions are the identity, so nothing else is left of the body. -/

/-- The left operand's index of the contraction keeps the output's row … -/
theorem dot0_lhs_row (i : S512x3072.Idx) (κ : dot_S512x1024_S1024x3072_S512x3072_1_0_0_1_n_n.contr.Idx) : (dot_S512x1024_S1024x3072_S512x3072_1_0_0_1_n_n.lhsIdx i κ 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- … and runs along the contracted axis; -/
theorem dot0_lhs_col (i : S512x3072.Idx) (κ : dot_S512x1024_S1024x3072_S512x3072_1_0_0_1_n_n.contr.Idx) : (dot_S512x1024_S1024x3072_S512x3072_1_0_0_1_n_n.lhsIdx i κ 1).val = (κ ⟨0, by decide⟩).val :=
  dot_S512x1024_S1024x3072_S512x3072_1_0_0_1_n_n.lhsIdx_val_of_single rfl i κ
/-- the right operand's index runs along the contracted axis … -/
theorem dot0_rhs_row (i : S512x3072.Idx) (κ : dot_S512x1024_S1024x3072_S512x3072_1_0_0_1_n_n.contr.Idx) : (dot_S512x1024_S1024x3072_S512x3072_1_0_0_1_n_n.rhsIdx i κ 0).val = (κ ⟨0, by decide⟩).val :=
  dot_S512x1024_S1024x3072_S512x3072_1_0_0_1_n_n.rhsIdx_val_of_single rfl i κ
/-- … and keeps the output's column. -/
theorem dot0_rhs_col (i : S512x3072.Idx) (κ : dot_S512x1024_S1024x3072_S512x3072_1_0_0_1_n_n.contr.Idx) : (dot_S512x1024_S1024x3072_S512x3072_1_0_0_1_n_n.rhsIdx i κ 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- Entry (p, q) of the product of a 512 × 1024 block with the 1024 × 3072 weights, accumulated into zero: the sum
    over the one contracted axis, re-indexed by its coordinate. -/
theorem dot0_apply (l : FVec Ideal S512x1024 .bf16) (r : FVec Ideal S1024x3072 .bf16) (p : Fin 512) (q : Fin 3072) :
    matmul dot_S512x1024_S1024x3072_S512x3072_1_0_0_1_n_n none l r (constant (F := Ideal) S512x3072 .f32 0x00000000#32) (ix2 p q)
      = ∑ k : Fin 1024, l (ix2 p k) * r (ix2 k q) := by
  refine (Ideal.matmul_constant_zero_apply dot_S512x1024_S1024x3072_S512x3072_1_0_0_1_n_n none l r (ix2 p q)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact dot0_lhs_row _ _
    | ⟨1, _⟩ => exact (dot0_lhs_col _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (dot0_rhs_row _ _).trans hk
    | ⟨1, _⟩ => exact dot0_rhs_col _ _)
  rw [el, er]

/-- The body's arithmetic at entry (p, q) of a block: row p of the left block against column q of the weights, plus
    the bias entry q. -/
theorem pay0_apply (x0 : Vec Ideal S512x1024 .f32) (x1 : Vec Ideal S1024x3072 .bf16) (x2 : Vec Ideal S1x3072 .f32)
    (p : Fin 512) (q : Fin 3072) :
    k0_pay1 (F := Ideal) x0 x1 x2 (ix2 p q) = (∑ k : Fin 1024, x0 (ix2 p k) * x1 (ix2 k q)) + x2 (ix2 (0 : Fin 1) q) := by
  unfold k0_pay1
  rw [shapeCast_self, shapeCast_self, shapeCast_self, truncf_apply, addf_apply, dot0_apply, broadcastTo_1b_ab_apply]
  rfl

/-- A block entry is the layer's entry at the place of the array the block sits at: if row p of the left block is row
    `i 0` of the left array, the weights' column q is the array's column `i 1`, and the bias entry q is the array's
    entry `i 1`, then entry (p, q) of the body's result is the linear layer's entry `i`. -/
theorem block0_entry (x0 : Vec Ideal S512x1024 .f32) (x1 : Vec Ideal S1024x3072 .bf16) (x2 : Vec Ideal S1x3072 .f32)
    (A : S4096x1024.Idx → EReal) (W : S1024x3072.Idx → EReal) (B : S1x3072.Idx → EReal)
    (p : Fin 512) (q : Fin 3072) (i : S4096x3072.Idx)
    (h0 : ∀ k : Fin 1024, x0 (ix2 p k) = A (ix2 (i 0) k))
    (h1 : ∀ k : Fin 1024, x1 (ix2 k q) = W (ix2 k (i 1)))
    (h2 : x2 (ix2 (0 : Fin 1) q) = B (ix2 (0 : Fin 1) (i 1))) :
    k0_pay1 (F := Ideal) x0 x1 x2 (ix2 p q) = Cert.Spec.affine (M := 4096) (K := 1024) (N := 3072) A W B i := by
  rw [pay0_apply, h2]
  unfold Cert.Spec.affine
  refine congrArg (· + _) (Finset.sum_congr rfl fun k _ => ?_)
  rw [h0 k, h1 k]

/-! ## From the blocks to the array

Grid point t of 8 works on rows 512·t … 512·t + 511: the left window and the output window move together down the
rows, while the weights and the bias are the same whole arrays at every point. -/

theorem zeros2 : (![0, 0] : Fin 2 → Nat) = fun _ => 0 := funext fun a => by fin_cases a <;> rfl

/-- The block indices, decided over the 8 grid points: the left window's row block is the output's and its column
    block is 0; the weights' and the bias's blocks are always block (0, 0); the output's column block is 0. -/
theorem blockIdx0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0 :=
  (by decide +kernel : ∀ t : Fin grid0.N, _)

/-- Every one of the 8 row blocks of the output is some grid point's. -/
theorem blockOnto0 : ∀ r : Fin 8, ∃ t : Fin cfg0.N, win0_3.index t = ![r.val, 0] :=
  (by decide +kernel : ∀ r : Fin 8, ∃ t : Fin grid0.N, win0_3.index t = ![r.val, 0])

variable (V : (c : Dev nD) → (b : Ref sig .tc) → Buf (Elt Ideal) ((c : Thread nD τ).loc b))

/-- What grid point t writes back is block t of the linear layer of the three arrays as the region finds them. -/
theorem flushed0_eq (c : Dev nD) (t : Fin cfg0.N) :
    (dat0 (F := Ideal) V c).flushed 3 t = ((cfg0.win 3).blk t).view.read (Elt Ideal)
      (Cert.Spec.affine (M := 4096) (K := 1024) (N := 3072) (V c main_v2) (V c main_v0) (V c main_v3)) := by
  show (cfg0.win 3).cut (grid0.coords t) ((dat0 V c).after 3 t) = _
  rw [after0_3]
  unfold out0_3
  rw [View.canon_unit_zero zeros2]
  simp only [View.ld_unit_zero (S := S512x1024) zeros2, View.ld_unit_zero (S := S1024x3072) zeros2, View.ld_unit_zero (S := S1x3072) zeros2]
  obtain ⟨e0, e1, e2, e3, e4, e5, e6⟩ := blockIdx0 t
  funext j
  show k0_pay1 (iblk0 V c 0 t) (iblk0 V c 1 t) (iblk0 V c 2 t) j
    = Cert.Spec.affine (M := 4096) (K := 1024) (N := 3072) (V c main_v2) (V c main_v0) (V c main_v3) (((cfg0.win 3).blk t).view.emb j)
  obtain ⟨p, q, rfl⟩ : ∃ (p : Fin 512) (q : Fin 3072), j = ix2 p q := ⟨j 0, j 1, eq_ix2 j⟩
  refine block0_entry _ _ _ _ _ _ p q _ (fun k => ?_) (fun k => ?_) ?_
  · show V c main_v2 (((cfg0.win 0).blk t).view.emb (ix2 p k)) = V c main_v2 (ix2 ((((cfg0.win 3).blk t).view.emb (ix2 p q)) 0) k)
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  · show V c main_v0 (((cfg0.win 1).blk t).view.emb (ix2 k q)) = V c main_v0 (ix2 k ((((cfg0.win 3).blk t).view.emb (ix2 p q)) 1))
    refine congrArg _ (funext fun a => Fin.ext ?_)
    match a with
    | ⟨0, _⟩ => show win0_1.index t (0 : Fin 2) * 1024 + 1 * k.val = k.val; omega
    | ⟨1, _⟩ => show win0_1.index t (1 : Fin 2) * 3072 + 1 * q.val = win0_3.index t (1 : Fin 2) * 3072 + 1 * q.val; omega
  · show V c main_v3 (((cfg0.win 2).blk t).view.emb (ix2 (0 : Fin 1) q)) = V c main_v3 (ix2 (0 : Fin 1) ((((cfg0.win 3).blk t).view.emb (ix2 p q)) 1))
    refine congrArg _ (funext fun a => Fin.ext ?_)
    match a with
    | ⟨0, _⟩ => show win0_2.index t (0 : Fin 2) * 1 + 1 * 0 = 0; omega
    | ⟨1, _⟩ => show win0_2.index t (1 : Fin 2) * 3072 + 1 * q.val = win0_3.index t (1 : Fin 2) * 3072 + 1 * q.val; omega

/-- An index of the output array is in point t's block iff each coordinate is in the block's range on its axis. -/
theorem mem_blk0 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v4).slice (win0_3.rect t)).set ↔ _
  rw [View.set_slice_whole, Rect.mem_set_unit]
  exact Iff.rfl

/-- Every index of the output array is in some point's block: row r is in the block of the point whose row block is r / 512. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := blockOnto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- THE FIRST LAYER'S ARRAY after the region: the linear layer of the three arrays the region finds. -/
theorem final0 (c : Dev nD) :
    ((dat0 (F := Ideal) V c).arrAt 3 cfg0.N : S4096x3072.Idx → EReal)
      = Cert.Spec.affine (M := 4096) (K := 1024) (N := 3072) (V c main_v2) (V c main_v0) (V c main_v3) :=
  (dat0 V c).arrAt_eq_of_cover 3 _ (fun t _ => flushed0_eq V c t) cover0

/-! ## The second layer: the arithmetic of one block

A block of the second linear layer is a 512 × 1024 array of left rows, the whole 1024 × 1024 weight array and the
one-row bias; its entry (p, q) is again the sum over the shared axis k of (row p at k) · (weight at (k, q)), plus the
bias entry q. -/

/-- The left operand's index of the contraction keeps the output's row … -/
theorem dot2_lhs_row (i : S512x1024.Idx) (κ : dot_S512x1024_S1024x1024_S512x1024_1_0_0_1_n_n.contr.Idx) : (dot_S512x1024_S1024x1024_S512x1024_1_0_0_1_n_n.lhsIdx i κ 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and runs along the contracted axis; -/
theorem dot2_lhs_col (i : S512x1024.Idx) (κ : dot_S512x1024_S1024x1024_S512x1024_1_0_0_1_n_n.contr.Idx) : (dot_S512x1024_S1024x1024_S512x1024_1_0_0_1_n_n.lhsIdx i κ 1).val = (κ ⟨0, by decide⟩).val :=
  dot_S512x1024_S1024x1024_S512x1024_1_0_0_1_n_n.lhsIdx_val_of_single rfl i κ
/-- the right operand's index runs along the contracted axis … -/
theorem dot2_rhs_row (i : S512x1024.Idx) (κ : dot_S512x1024_S1024x1024_S512x1024_1_0_0_1_n_n.contr.Idx) : (dot_S512x1024_S1024x1024_S512x1024_1_0_0_1_n_n.rhsIdx i κ 0).val = (κ ⟨0, by decide⟩).val :=
  dot_S512x1024_S1024x1024_S512x1024_1_0_0_1_n_n.rhsIdx_val_of_single rfl i κ
/-- … and keeps the output's column. -/
theorem dot2_rhs_col (i : S512x1024.Idx) (κ : dot_S512x1024_S1024x1024_S512x1024_1_0_0_1_n_n.contr.Idx) : (dot_S512x1024_S1024x1024_S512x1024_1_0_0_1_n_n.rhsIdx i κ 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of the product of a 512 × 1024 block with the 1024 × 1024 weights, accumulated into zero: the sum
    over the one contracted axis, re-indexed by its coordinate. -/
theorem dot2_apply (l : FVec Ideal S512x1024 .bf16) (r : FVec Ideal S1024x1024 .bf16) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  refine (Ideal.matmul_constant_zero_apply dot_S512x1024_S1024x1024_S512x1024_1_0_0_1_n_n none l r (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact dot2_lhs_row _ _
    | ⟨1, _⟩ => exact (dot2_lhs_col _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (dot2_rhs_row _ _).trans hk
    | ⟨1, _⟩ => exact dot2_rhs_col _ _)
  rw [el, er]

/-- The body's arithmetic at entry (p, q) of a block: row p of the left block against column q of the weights, plus
    the bias entry q. -/
theorem pay2_apply (x0 : Vec Ideal S512x1024 .bf16) (x1 : Vec Ideal S1024x1024 .bf16) (x2 : Vec Ideal S1x1024 .f32)
    (p : Fin 512) (q : Fin 1024) :
    k2_pay1 (F := Ideal) x0 x1 x2 (ix2 p q) = (∑ k : Fin 1024, x0 (ix2 p k) * x1 (ix2 k q)) + x2 (ix2 (0 : Fin 1) q) := by
  unfold k2_pay1
  rw [shapeCast_self, shapeCast_self, shapeCast_self, addf_apply, dot2_apply, broadcastTo_1b_ab_apply]

/-- A block entry is the layer's entry at the place of the array the block sits at: if row p of the left block is row
    `i 0` of the left array, the weights' column q is the array's column `i 1`, and the bias entry q is the array's
    entry `i 1`, then entry (p, q) of the body's result is the linear layer's entry `i`. -/
theorem block2_entry (x0 : Vec Ideal S512x1024 .bf16) (x1 : Vec Ideal S1024x1024 .bf16) (x2 : Vec Ideal S1x1024 .f32)
    (A : S4096x1024.Idx → EReal) (W : S1024x1024.Idx → EReal) (B : S1x1024.Idx → EReal)
    (p : Fin 512) (q : Fin 1024) (i : S4096x1024.Idx)
    (h0 : ∀ k : Fin 1024, x0 (ix2 p k) = A (ix2 (i 0) k))
    (h1 : ∀ k : Fin 1024, x1 (ix2 k q) = W (ix2 k (i 1)))
    (h2 : x2 (ix2 (0 : Fin 1) q) = B (ix2 (0 : Fin 1) (i 1))) :
    k2_pay1 (F := Ideal) x0 x1 x2 (ix2 p q) = Cert.Spec.affine (M := 4096) (K := 1024) (N := 1024) A W B i := by
  rw [pay2_apply, h2]
  unfold Cert.Spec.affine
  refine congrArg (· + _) (Finset.sum_congr rfl fun k _ => ?_)
  rw [h0 k, h1 k]

/-! ## The second layer: from the blocks to the array

The same tiling as the first layer's: grid point t of 8 works on rows 512·t … 512·t + 511, the weights and the bias
whole at every point. -/

/-- The block indices, decided over the 8 grid points: the left window's row block is the output's and its column
    block is 0; the weights' and the bias's blocks are always block (0, 0); the output's column block is 0. -/
theorem blockIdx2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0 :=
  (by decide +kernel : ∀ t : Fin grid2.N, _)

/-- Every one of the 8 row blocks of the output is some grid point's. -/
theorem blockOnto2 : ∀ r : Fin 8, ∃ t : Fin cfg2.N, win2_3.index t = ![r.val, 0] :=
  (by decide +kernel : ∀ r : Fin 8, ∃ t : Fin grid2.N, win2_3.index t = ![r.val, 0])

/-- What grid point t writes back is block t of the linear layer of the three arrays as the region finds them. -/
theorem flushed2_eq (c : Dev nD) (t : Fin cfg2.N) :
    (dat2 (F := Ideal) V c).flushed 3 t = ((cfg2.win 3).blk t).view.read (Elt Ideal)
      (Cert.Spec.affine (M := 4096) (K := 1024) (N := 1024) (V c main_v22) (V c main_v1) (V c main_v23)) := by
  show (cfg2.win 3).cut (grid2.coords t) ((dat2 V c).after 3 t) = _
  rw [after2_3]
  unfold out2_3
  rw [View.canon_unit_zero zeros2]
  simp only [View.ld_unit_zero (S := S512x1024) zeros2, View.ld_unit_zero (S := S1024x1024) zeros2, View.ld_unit_zero (S := S1x1024) zeros2]
  obtain ⟨e0, e1, e2, e3, e4, e5, e6⟩ := blockIdx2 t
  funext j
  show k2_pay1 (iblk2 V c 0 t) (iblk2 V c 1 t) (iblk2 V c 2 t) j
    = Cert.Spec.affine (M := 4096) (K := 1024) (N := 1024) (V c main_v22) (V c main_v1) (V c main_v23) (((cfg2.win 3).blk t).view.emb j)
  obtain ⟨p, q, rfl⟩ : ∃ (p : Fin 512) (q : Fin 1024), j = ix2 p q := ⟨j 0, j 1, eq_ix2 j⟩
  refine block2_entry _ _ _ _ _ _ p q _ (fun k => ?_) (fun k => ?_) ?_
  · show V c main_v22 (((cfg2.win 0).blk t).view.emb (ix2 p k)) = V c main_v22 (ix2 ((((cfg2.win 3).blk t).view.emb (ix2 p q)) 0) k)
    refine congrArg _ (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  · show V c main_v1 (((cfg2.win 1).blk t).view.emb (ix2 k q)) = V c main_v1 (ix2 k ((((cfg2.win 3).blk t).view.emb (ix2 p q)) 1))
    refine congrArg _ (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + 1 * q.val; omega
  · show V c main_v23 (((cfg2.win 2).blk t).view.emb (ix2 (0 : Fin 1) q)) = V c main_v23 (ix2 (0 : Fin 1) ((((cfg2.win 3).blk t).view.emb (ix2 p q)) 1))
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the output array is in point t's block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v24).slice (win2_3.rect t)).set ↔ _
  rw [View.set_slice_whole, Rect.mem_set_unit]
  exact Iff.rfl

/-- Every index of the output array is in some point's block: row r is in the block of the point whose row block is r / 512. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := blockOnto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE SECOND LAYER'S ARRAY after the region: the linear layer of the three arrays the region finds. -/
theorem final2 (c : Dev nD) :
    ((dat2 (F := Ideal) V c).arrAt 3 cfg2.N : S4096x1024.Idx → EReal)
      = Cert.Spec.affine (M := 4096) (K := 1024) (N := 1024) (V c main_v22) (V c main_v1) (V c main_v23) :=
  (dat2 V c).arrAt_eq_of_cover 3 _ (fun t _ => flushed2_eq V c t) cover2

end Cert.KernelIdeal.LinearBlocks

end
-- ==== Proof.AttentionBlocks.lean ====
/-
  Causal attention, one (batch, head) index per grid point, block by block and then as a whole array.

  Grid point g of 64 takes block g — 1024 rows of 64 features — of the queries, the keys and the values and writes
  back block g of the output. The body's arithmetic at row r, feature d is: the scores of row r against every key row
  c (a dot product over the 64 features, times 1/8), replaced by -10000 where c > r; the softmax of that row (the
  exponentials shifted by the row's maximum taken from -∞, over their sum); and the sum over c of the weights against
  feature d of value row c. The format conversions are the identity on the extended reals. Since the 64 blocks tile
  the output, the array the region leaves is that one function of the three arrays it found.
-/
import proofs.«128924_j63247688401034_2_alg».proof.Proof.Gen.KernelIdeal.Frame
import proofs.«128924_j63247688401034_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttentionBlocks

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## Words: the causal comparison of two positions below 1024 -/

/-- A number below 1024, as a 32-bit word read signed, is itself. -/
theorem toInt_ofNat_small (n : Nat) (hn : n < 1024) : (BitVec.ofNat 32 n).toInt = (n : Int) := by
  rw [BitVec.toInt_eq_toNat_cond, BitVec.toNat_ofNat]
  have h : n % 2 ^ 32 = n := Nat.mod_eq_of_lt (by omega)
  rw [h, if_pos (by omega)]

/-- The signed comparison "row ≥ column" of two positions below 1024 is the comparison of the numbers. -/
theorem sge_ofNat (r c : Nat) (hr : r < 1024) (hc : c < 1024) :
    IntOp.cmpi .sge (BitVec.ofNat 32 r) (BitVec.ofNat 32 c) = if c ≤ r then 1#1 else 0#1 := by
  unfold IntOp.cmpi
  show BitVec.ofBool ((BitVec.ofNat 32 c).sle (BitVec.ofNat 32 r)) = _
  rw [BitVec.sle_eq_decide, toInt_ofNat_small r hr, toInt_ofNat_small c hc]
  by_cases h : c ≤ r
  · rw [if_pos h, decide_eq_true (by omega : (c : Int) ≤ (r : Int))]; rfl
  · rw [if_neg h, decide_eq_false (by omega : ¬ (c : Int) ≤ (r : Int))]; rfl

/-! ## The keep-dims column forms of a row statistic -/

section Column
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

end Column

/-! ## The two products read at an index -/

/-- The score product's left operand index at output `(r, c)` and contraction position `q`: row `r` … -/
theorem scoreDot_lhs0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
/-- … and the right operand's: column `c`. -/
theorem scoreDot_rhs1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The score product at `(r, c)`: row `r` of the left operand against column `c` of the right, over the 64 features. -/
theorem scoreDot_apply (a : FVec Ideal S1024x64 .bf16) (b : FVec Ideal S64x1024 .bf16) (r c : Fin 1024) :
    matmul dot_S1024x64_S64x1024_S1024x1024_1_0_0_1_n_n none a b (constant (F := Ideal) S1024x1024 .f32 0x00000000#32) (ix2 r c)
      = ∑ d : Fin 64, a (ix2 r d) * b (ix2 d c) := by
  refine (Ideal.matmul_constant_zero_apply _ _ a b (ix2 r c)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c)
      ((contrEquiv1 dot_S1024x64_S64x1024_S1024x1024_1_0_0_1_n_n 64 rfl rfl).symm k) = ix2 r k := funext fun ax => Fin.ext (by
    match ax with
    | ⟨0, _⟩ => exact scoreDot_lhs0 _ _
    | ⟨1, _⟩ => exact (dot_S1024x64_S64x1024_S1024x1024_1_0_0_1_n_n.lhsIdx_val_of_single rfl _ _).trans hk)
  have er : dot_S1024x64_S64x1024_S1024x1024_1_0_0_1_n_n.rhsIdx (ix2 r c)
      ((contrEquiv1 dot_S1024x64_S64x1024_S1024x1024_1_0_0_1_n_n 64 rfl rfl).symm k) = ix2 k c := funext fun ax => Fin.ext (by
    match ax with
    | ⟨0, _⟩ => exact (dot_S1024x64_S64x1024_S1024x1024_1_0_0_1_n_n.rhsIdx_val_of_single rfl _ _).trans hk
    | ⟨1, _⟩ => exact scoreDot_rhs1 _ _)
  rw [el, er]

/-- The value product's left operand index at output `(r, d)`: row `r` … -/
theorem valueDot_lhs0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
/-- … and the right operand's: column `d`. -/
theorem valueDot_rhs1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The value product at `(r, d)`: row `r` of the weights against column `d` of the values, over the 1024 positions. -/
theorem valueDot_apply (a : FVec Ideal S1024x1024 .bf16) (b : FVec Ideal S1024x64 .bf16) (r : Fin 1024) (d : Fin 64) :
    matmul dot_S1024x1024_S1024x64_S1024x64_1_0_0_1_n_n none a b (constant (F := Ideal) S1024x64 .f32 0x00000000#32) (ix2 r d)
      = ∑ c : Fin 1024, a (ix2 r c) * b (ix2 c d) := by
  refine (Ideal.matmul_constant_zero_apply _ _ a b (ix2 r d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d)
      ((contrEquiv1 dot_S1024x1024_S1024x64_S1024x64_1_0_0_1_n_n 1024 rfl rfl).symm k) = ix2 r k := funext fun ax => Fin.ext (by
    match ax with
    | ⟨0, _⟩ => exact valueDot_lhs0 _ _
    | ⟨1, _⟩ => exact (dot_S1024x1024_S1024x64_S1024x64_1_0_0_1_n_n.lhsIdx_val_of_single rfl _ _).trans hk)
  have er : dot_S1024x1024_S1024x64_S1024x64_1_0_0_1_n_n.rhsIdx (ix2 r d)
      ((contrEquiv1 dot_S1024x1024_S1024x64_S1024x64_1_0_0_1_n_n 1024 rfl rfl).symm k) = ix2 k d := funext fun ax => Fin.ext (by
    match ax with
    | ⟨0, _⟩ => exact (dot_S1024x1024_S1024x64_S1024x64_1_0_0_1_n_n.rhsIdx_val_of_single rfl _ _).trans hk
    | ⟨1, _⟩ => exact valueDot_rhs1 _ _)
  rw [el, er]

/-! ## The row statistics: a lane reduction of a `[1024, 1024]` matrix read at a row -/

/-- The index a reduction along the columns reads for row `r` and column `c` is `(r, c)`. -/
theorem lift_row (h : S1024x1024.Reduces [1] S1024) (r c : Fin 1024) : h.lift (ix1 r) c = ix2 r c :=
  funext fun ax => Fin.ext (by
    match ax with
    | ⟨0, _⟩ => rfl
    | ⟨1, _⟩ => rfl)

/-- The row maximum: the fold of `max` from -∞ over the row's 1024 entries. -/
theorem rowMax_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = Cert.Spec.rowMax (fun c => src (ix2 r c)) := by
  refine (Ideal.multiReduction_maximumf_single src _ h hφ hacc (ix1 r)).trans ?_
  have hl : (src ∘ h.lift (ix1 r) : Fin 1024 → EReal) = fun c => src (ix2 r c) :=
    funext fun c => congrArg src (lift_row h r c)
  exact congrArg (fun f : Fin 1024 → EReal =>
    (Finset.univ : Finset (Fin 1024)).fold max (Ideal.ofBits .f32 0xFF800000#32) f) hl

/-- The row sum: the sum of the row's 1024 entries. -/
theorem rowSum_apply (src : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r)
      = ∑ c : Fin 1024, src (ix2 r c) := by
  refine (Ideal.multiReduction_add_single src _ h hφ hacc (ix1 r)).trans ?_
  show ∑ c : Fin 1024, src (h.lift (ix1 r) c) = _
  exact Finset.sum_congr rfl fun c _ => congrArg src (lift_row h r c)

/-- A row statistic kept as a column and spread back over the row's 1024 entries reads the statistic of the row. -/
theorem keepdims_apply (x : FVec Ideal S1024 .f32) (hc : S1024.ShapeCasts S1024x1) (hb : S1024x1.Broadcasts S1024x1024)
    (r c : Fin 1024) : broadcastTo S1024x1024 (shapeCast S1024x1 x hc) hb (ix2 r c) = x (ix1 r) :=
  (broadcastTo_a1_ab_apply _ hb r c).trans (shapeCast_a_a1_apply x hc r 0)

/-! ## The causal mask -/

/-- The mask "row ≥ column", built from the two position arrays, selects the score on and below the diagonal and the
    mask value above it. -/
theorem masked_apply (s : FVec Ideal S1024x1024 .f32) (w : EReal) (h0 : S1024x1024.Iotas .tc 32 [0])
    (h1 : S1024x1024.Iotas .tc 32 [1]) (r c : Fin 1024) :
    select (cmpi .sge (iota .tc S1024x1024 32 [0] h0) (iota .tc S1024x1024 32 [1] h1)) s (broadcast S1024x1024 w) (ix2 r c)
      = if c.val ≤ r.val then s (ix2 r c) else w := by
  show Scalar.select (IntOp.cmpi .sge (iota .tc S1024x1024 32 [0] h0 (ix2 r c)) (iota .tc S1024x1024 32 [1] h1 (ix2 r c)))
    (s (ix2 r c)) w = _
  rw [iota_single_apply, iota_single_apply]
  show Scalar.select (IntOp.cmpi .sge (BitVec.ofNat 32 r.val) (BitVec.ofNat 32 c.val)) (s (ix2 r c)) w = _
  rw [sge_ofNat r.val c.val r.isLt c.isLt]
  by_cases h : c.val ≤ r.val
  · rw [if_pos h, if_pos h, select_one]
  · rw [if_neg h, if_neg h, select_zero]

/-! ## The row normalisation -/

/-- Exponentials shifted by the row maximum, over their row sum, at `(r, c)`: the softmax of row `r` at `c`. -/
theorem softmax_apply (M : FVec Ideal S1024x1024 .f32) (h : S1024x1024.Reduces [1] S1024) (hφ : FKind.Formats .f32)
    (hmax : (0xFF800000#32 : BitVec 32) = FKind.maximumf.neutral .f32 hφ)
    (hadd : (0x00000000#32 : BitVec 32) = FKind.add.neutral .f32 hφ)
    (hc : S1024.ShapeCasts S1024x1) (hb : S1024x1.Broadcasts S1024x1024) (r c : Fin 1024) :
    divf
      (exp (subf M (broadcastTo S1024x1024 (shapeCast S1024x1
        (multiReduction (F := Ideal) .maximumf [1] S1024 M 0xFF800000#32 h hφ hmax) hc) hb)))
      (broadcastTo S1024x1024 (shapeCast S1024x1 (multiReduction (F := Ideal) .add [1] S1024
        (exp (subf M (broadcastTo S1024x1024 (shapeCast S1024x1
          (multiReduction (F := Ideal) .maximumf [1] S1024 M 0xFF800000#32 h hφ hmax) hc) hb)))
        0x00000000#32 h hφ hadd) hc) hb) (ix2 r c)
      = Cert.Spec.softmaxRow (fun c => M (ix2 r c)) c := by
  have hE : ∀ c' : Fin 1024, exp (subf M (broadcastTo S1024x1024 (shapeCast S1024x1
        (multiReduction (F := Ideal) .maximumf [1] S1024 M 0xFF800000#32 h hφ hmax) hc) hb)) (ix2 r c')
      = Ideal.exp (M (ix2 r c') - Cert.Spec.rowMax (fun c => M (ix2 r c))) := fun c' => by
    show Ideal.exp (M (ix2 r c') - broadcastTo S1024x1024 (shapeCast S1024x1 _ hc) hb (ix2 r c')) = _
    rw [keepdims_apply, rowMax_apply]
  show Ideal.div (exp (subf M _) (ix2 r c)) (broadcastTo S1024x1024 (shapeCast S1024x1 _ hc) hb (ix2 r c)) = _
  rw [keepdims_apply, rowSum_apply, hE c]
  unfold Cert.Spec.softmaxRow
  exact congrArg (Ideal.div _) (Finset.sum_congr rfl fun c' _ => hE c')

/-! ## The masked, scaled scores of a block -/

/-- Query row `r` against key row `c` of the loaded blocks: the dot product over the features times 1/8 on and below
    the diagonal, the mask value above it. -/
theorem scores_apply (x0 x1 : FVec Ideal S1x1024x64 .bf16) (hs : S1x1024x64.ShapeCasts S1024x64)
    (ht : S1024x64.Transposes [1, 0] S64x1024) (h0 : S1024x1024.Iotas .tc 32 [0]) (h1 : S1024x1024.Iotas .tc 32 [1])
    (r c : Fin 1024) :
    select (cmpi .sge (iota .tc S1024x1024 32 [0] h0) (iota .tc S1024x1024 32 [1] h1))
      (mulf (matmul dot_S1024x64_S64x1024_S1024x1024_1_0_0_1_n_n none (shapeCast S1024x64 x0 hs)
          (transpose S64x1024 [1, 0] (shapeCast S1024x64 x1 hs) ht) (constant (F := Ideal) S1024x1024 .f32 0x00000000#32))
        (broadcast S1024x1024 (Scalar.ofBits (F := Ideal) .f32 0x3E000000#32)))
      (broadcast S1024x1024 (Scalar.ofBits (F := Ideal) .f32 0xC61C4000#32)) (ix2 r c)
    = Cert.Spec.maskedScore (fun r d => x0 (ix3 (0 : Fin 1) r d)) (fun r d => x1 (ix3 (0 : Fin 1) r d)) r c := by
  refine (masked_apply _ _ h0 h1 r c).trans ?_
  unfold Cert.Spec.maskedScore
  refine if_congr Iff.rfl ?_ rfl
  refine (mulf_apply _ _ _).trans ?_
  refine congrArg₂ (· * ·) ?_ rfl
  refine (scoreDot_apply _ _ r c).trans ?_
  refine Finset.sum_congr rfl fun d _ => ?_
  refine congrArg₂ (· * ·) (shapeCast_1ab_ab_apply x0 hs r d) ?_
  exact (transpose_ix2_apply _ ht d c).trans (shapeCast_1ab_ab_apply x1 hs c d)

/-! ## The body's payload at an index -/

/-- What the body stores at row `r`, feature `d` of its block: one head of causal attention of the three loaded blocks. -/
theorem headBlock_apply (x0 x1 x2 : Vec Ideal S1x1024x64 .bf16) (r : Fin 1024) (d : Fin 64) :
    k1_pay1 (F := Ideal) x0 x1 x2 (ix3 (0 : Fin 1) r d)
      = Cert.Spec.attnHead (fun r d => x0 (ix3 (0 : Fin 1) r d)) (fun r d => x1 (ix3 (0 : Fin 1) r d))
          (fun r d => x2 (ix3 (0 : Fin 1) r d)) r d := by
  unfold k1_pay1
  dsimp only
  refine (shapeCast_ab_1ab_apply _ _ (0 : Fin 1) r d).trans ?_
  refine (truncf_apply (ψ := .bf16) (φ := .f32) _ bitsLt_bf16_f32 (ix2 r d)).trans ?_
  refine (valueDot_apply _ _ r d).trans ?_
  unfold Cert.Spec.attnHead
  refine Finset.sum_congr rfl fun c _ => ?_
  refine congrArg₂ (· * ·) ?_ (shapeCast_1ab_ab_apply x2 _ c d)
  refine (truncf_apply (ψ := .bf16) (φ := .f32) _ bitsLt_bf16_f32 (ix2 r c)).trans ?_
  refine (softmax_apply _ _ _ _ _ _ _ r c).trans ?_
  exact congrArg (fun w => Cert.Spec.softmaxRow w c) (funext fun c' => scores_apply x0 x1 _ _ _ _ r c')

/-! ## From blocks to the array

Point `t` of the 64-point grid loads block `t` (all 1024 rows, 64 features) of the three arrays and writes block `t` of
the result; the blocks tile the arrays along the first axis, so the result array is, block by block, one head of causal
attention of the same block of the queries, keys and values. -/

variable (V : (c : Dev nD) → (b : Ref sig .tc) → Buf (Elt Ideal) ((c : Thread nD τ).loc b))

/-- The array of heads: block `g` of the result is one head of causal attention of block `g` of `q`, `k`, `v`. -/
abbrev headsOf (q k v : S64x1024x64.Idx → EReal) : S64x1024x64.Idx → EReal := fun i =>
  Cert.Spec.attnHead (fun r d => q (ix3 (i 0 : Fin 64) r d)) (fun r d => k (ix3 (i 0 : Fin 64) r d))
    (fun r d => v (ix3 (i 0 : Fin 64) r d)) (i 1) (i 2)

theorem zero_offsets : (![0, 0, 0] : Fin 3 → Nat) = fun _ => 0 := funext fun a => by fin_cases a <;> rfl

/-- The printed index maps, decided over the 64 grid points: every window's block index at point `t` is `(t, 0, 0)`. -/
theorem blockIndex_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- A grid point as a block number. -/
abbrev blockOf (t : Fin cfg1.N) : Fin 64 := ⟨t.val, by have h : grid1.N = 64 := N_1; have ht : t.val < grid1.N := t.isLt; omega⟩

/-- Element `(0, r, d)` of the query window's block at point `t` sits at array index `(t, r, d)` … -/
theorem emb_q (t : Fin cfg1.N) (r : Fin 1024) (d : Fin 64) :
    ((cfg1.win 0).blk t).view.emb (ix3 (0 : Fin 1) r d) = ix3 (blockOf t) r d := by
  obtain ⟨⟨e0, e1, e2⟩, -, -, -⟩ := blockIndex_facts t
  funext a; apply Fin.ext
  match a with
  | ⟨0, _⟩ => show win1_0.index t (0 : Fin 3) * 1 + 1 * 0 = t.val; omega
  | ⟨1, _⟩ => show win1_0.index t (1 : Fin 3) * 1024 + 1 * r.val = r.val; omega
  | ⟨2, _⟩ => show win1_0.index t (2 : Fin 3) * 64 + 1 * d.val = d.val; omega
/-- … the key window's likewise … -/
theorem emb_k (t : Fin cfg1.N) (r : Fin 1024) (d : Fin 64) :
    ((cfg1.win 1).blk t).view.emb (ix3 (0 : Fin 1) r d) = ix3 (blockOf t) r d := by
  obtain ⟨-, ⟨e0, e1, e2⟩, -, -⟩ := blockIndex_facts t
  funext a; apply Fin.ext
  match a with
  | ⟨0, _⟩ => show win1_1.index t (0 : Fin 3) * 1 + 1 * 0 = t.val; omega
  | ⟨1, _⟩ => show win1_1.index t (1 : Fin 3) * 1024 + 1 * r.val = r.val; omega
  | ⟨2, _⟩ => show win1_1.index t (2 : Fin 3) * 64 + 1 * d.val = d.val; omega
/-- … the value window's … -/
theorem emb_v (t : Fin cfg1.N) (r : Fin 1024) (d : Fin 64) :
    ((cfg1.win 2).blk t).view.emb (ix3 (0 : Fin 1) r d) = ix3 (blockOf t) r d := by
  obtain ⟨-, -, ⟨e0, e1, e2⟩, -⟩ := blockIndex_facts t
  funext a; apply Fin.ext
  match a with
  | ⟨0, _⟩ => show win1_2.index t (0 : Fin 3) * 1 + 1 * 0 = t.val; omega
  | ⟨1, _⟩ => show win1_2.index t (1 : Fin 3) * 1024 + 1 * r.val = r.val; omega
  | ⟨2, _⟩ => show win1_2.index t (2 : Fin 3) * 64 + 1 * d.val = d.val; omega
/-- … and the result window's. -/
theorem emb_out (t : Fin cfg1.N) (r : Fin 1024) (d : Fin 64) :
    ((cfg1.win 3).blk t).view.emb (ix3 (0 : Fin 1) r d) = ix3 (blockOf t) r d := by
  obtain ⟨-, -, -, ⟨e0, e1, e2⟩⟩ := blockIndex_facts t
  funext a; apply Fin.ext
  match a with
  | ⟨0, _⟩ => show win1_3.index t (0 : Fin 3) * 1 + 1 * 0 = t.val; omega
  | ⟨1, _⟩ => show win1_3.index t (1 : Fin 3) * 1024 + 1 * r.val = r.val; omega
  | ⟨2, _⟩ => show win1_3.index t (2 : Fin 3) * 64 + 1 * d.val = d.val; omega

/-- The loaded query block at point `t` is block `t` of the query array … -/
theorem read_q (c : Dev nD) (t : Fin cfg1.N) (r : Fin 1024) (d : Fin 64) :
    iblk1 V c 0 t (ix3 (0 : Fin 1) r d) = V c main_v11 (ix3 (blockOf t) r d) := by
  show V c main_v11 (((cfg1.win 0).blk t).view.emb (ix3 (0 : Fin 1) r d)) = _
  rw [emb_q]
/-- … the key block of the key array … -/
theorem read_k (c : Dev nD) (t : Fin cfg1.N) (r : Fin 1024) (d : Fin 64) :
    iblk1 V c 1 t (ix3 (0 : Fin 1) r d) = V c main_v14 (ix3 (blockOf t) r d) := by
  show V c main_v14 (((cfg1.win 1).blk t).view.emb (ix3 (0 : Fin 1) r d)) = _
  rw [emb_k]
/-- … and the value block of the value array. -/
theorem read_v (c : Dev nD) (t : Fin cfg1.N) (r : Fin 1024) (d : Fin 64) :
    iblk1 V c 2 t (ix3 (0 : Fin 1) r d) = V c main_v17 (ix3 (blockOf t) r d) := by
  show V c main_v17 (((cfg1.win 2).blk t).view.emb (ix3 (0 : Fin 1) r d)) = _
  rw [emb_v]

/-- WHAT POINT `t` WRITES BACK is block `t` of the array of heads of the three arrays as the region finds them. -/
theorem flushed_eq (c : Dev nD) (t : Fin cfg1.N) :
    (dat1 (F := Ideal) V c).flushed 3 t
      = ((cfg1.win 3).blk t).view.read (Elt Ideal) (headsOf (V c main_v11) (V c main_v14) (V c main_v17)) := by
  show (cfg1.win 3).cut (grid1.coords t) ((dat1 (F := Ideal) V c).after 3 t) = _
  rw [after1_3]
  unfold out1_3
  rw [View.canon_unit_zero zero_offsets]
  simp only [View.ld_unit_zero (S := S1x1024x64) zero_offsets]
  refine funext fun (j : S1x1024x64.Idx) => ?_
  obtain ⟨u, r, d, rfl⟩ : ∃ (u : Fin 1) (r : Fin 1024) (d : Fin 64), j = ix3 u r d := ⟨j 0, j 1, j 2, eq_ix3 j⟩
  obtain rfl : u = 0 := Subsingleton.elim _ _
  show k1_pay1 (F := Ideal) (iblk1 V c 0 t) (iblk1 V c 1 t) (iblk1 V c 2 t) (ix3 (0 : Fin 1) r d)
    = headsOf (V c main_v11) (V c main_v14) (V c main_v17) (((cfg1.win 3).blk t).view.emb (ix3 (0 : Fin 1) r d))
  refine (headBlock_apply (iblk1 V c 0 t) (iblk1 V c 1 t) (iblk1 V c 2 t) r d).trans ?_
  refine Eq.trans ?_ (congrArg (headsOf (V c main_v11) (V c main_v14) (V c main_v17)) (emb_out t r d)).symm
  have hq : (fun (r : Fin 1024) (d : Fin 64) => iblk1 V c 0 t (ix3 (0 : Fin 1) r d))
      = fun r d => V c main_v11 (ix3 (blockOf t) r d) := funext fun r => funext fun d => read_q V c t r d
  have hk : (fun (r : Fin 1024) (d : Fin 64) => iblk1 V c 1 t (ix3 (0 : Fin 1) r d))
      = fun r d => V c main_v14 (ix3 (blockOf t) r d) := funext fun r => funext fun d => read_k V c t r d
  have hv : (fun (r : Fin 1024) (d : Fin 64) => iblk1 V c 2 t (ix3 (0 : Fin 1) r d))
      = fun r d => V c main_v17 (ix3 (blockOf t) r d) := funext fun r => funext fun d => read_v V c t r d
  have h := congr (congr (congrArg (fun q k v => Cert.Spec.attnHead q k v r d) hq) hk) hv
  exact h

/-- An index of the array is in point `t`'s block iff each coordinate is in the block's range on its axis. -/
theorem mem_blk (t : Fin cfg1.N) (i : S64x1024x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v18).slice (win1_3.rect t)).set ↔ _
  rw [View.set_slice_whole, Rect.mem_set_unit]
  exact Iff.rfl

/-- Every index `(g, r, d)` of the result is in the block of point `g`. -/
theorem covered (i : S64x1024x64.Idx) :
    ∃ t : Fin cfg1.N, (cfg1.win 3).flush t = true ∧ i ∈ ((cfg1.win 3).blk t).view.set := by
  have hi0 : (i 0).val < 64 := (i 0).isLt
  have hi1 : (i 1).val < 1024 := (i 1).isLt
  have hi2 : (i 2).val < 64 := (i 2).isLt
  have hN : grid1.N = 64 := N_1
  obtain ⟨t, ht⟩ : ∃ t : Fin cfg1.N, t.val = (i 0).val := ⟨⟨(i 0).val, by show (i 0).val < grid1.N; omega⟩, rfl⟩
  obtain ⟨-, -, -, ⟨e0, e1, e2⟩⟩ := blockIndex_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- THE RESULT ARRAY after region 1: block `g` is one head of causal attention of block `g` of the queries, keys and
    values as the region finds them. -/
theorem final1 (c : Dev nD) :
    ((dat1 (F := Ideal) V c).arrAt 3 cfg1.N : S64x1024x64.Idx → EReal)
      = fun i => Cert.Spec.attnHead (fun r d => V c main_v11 (ix3 (i 0 : Fin 64) r d))
          (fun r d => V c main_v14 (ix3 (i 0 : Fin 64) r d)) (fun r d => V c main_v17 (ix3 (i 0 : Fin 64) r d)) (i 1) (i 2) :=
  (dat1 (F := Ideal) V c).arrAt_eq_of_cover 3 (headsOf (V c main_v11) (V c main_v14) (V c main_v17))
    (fun t _ => flushed_eq V c t) covered

end Cert.KernelIdeal.AttentionBlocks

end
-- ==== Proof.Boundary.lean ====
/-
  What each region of the kernel program finds in its operand arrays, and what the program returns, as the host
  operations' own functions of what the previous boundary holds: the first region's operands are the reshaped input,
  the converted weight and the reshaped bias; the second region's are the three head-major re-layouts of the first
  region's output; the third region's are the re-laid-out attention output, the converted second weight and the
  reshaped second bias; the result is the reshaped output of the third region.
-/
import proofs.«128924_j63247688401034_2_alg».proof.Proof.Gen.KernelIdeal.Frame
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## Region 0's operands -/

theorem lhs0 (c : Dev nD) : V1 m ρ c main_v2
    = shapeCast S4096x1024 (m ((c : Thread nD τ).loc main_arg0)) shapeCasts_S4x1024x1024_S4096x1024 := by
  show StableHlo.after hostOps0 (W0 m ρ c) (Proc.devRef .tc main_v2) = _
  after_results; rfl

theorem weight0 (c : Dev nD) : V1 m ρ c main_v0
    = truncf .bf16 (m ((c : Thread nD τ).loc main_arg1)) bitsLt_bf16_f32 := by
  show StableHlo.after hostOps0 (W0 m ρ c) (Proc.devRef .tc main_v0) = _
  after_results

theorem bias0 (c : Dev nD) : V1 m ρ c main_v3
    = shapeCast S1x3072 (m ((c : Thread nD τ).loc main_arg2)) shapeCasts_S3072_S1x3072 := by
  show StableHlo.after hostOps0 (W0 m ρ c) (Proc.devRef .tc main_v3) = _
  after_results; rfl

/-! ## Region 1's operands: the three head-major re-layouts of region 0's output -/

/-- Region 0's output array as it stands when the region is left. -/
abbrev out0 (c : Dev nD) : (⟨S4096x3072, .bf16⟩ : BufTy).Contents (Elt F) := W2 m ρ c (Proc.devRef .tc main_v4)

/-- One of the three feature slices (at offset `off` of the 3072) of the [4,1024,3072] view of an array of 4096 rows,
    split into 16 heads of 64 features and moved head-major: [4,16,1024,64]. -/
abbrev headsOf (a : (⟨S4096x3072, .bf16⟩ : BufTy).Contents (Elt F)) (off : Fin 3 → Nat) (h : S4x1024x3072.Slices off S4x1024x1024) :
    (⟨S4x16x1024x64, .bf16⟩ : BufTy).Contents (Elt F) :=
  transpose S4x16x1024x64 [0, 2, 1, 3]
    (shapeCast S4x1024x16x64 (extractStridedSlice S4x1024x1024 off (shapeCast S4x1024x3072 a shapeCasts_S4096x3072_S4x1024x3072) h)
      shapeCasts_S4x1024x1024_S4x1024x16x64)
    transposes_S4x1024x16x64_S4x16x1024x64_0_2_1_3

theorem queries1 (c : Dev nD) : V3 m ρ c main_v11
    = shapeCast S64x1024x64 (headsOf (out0 m ρ c) ![0, 0, 0] slices_S4x1024x3072_S4x1024x1024_0_0_0) shapeCasts_S4x16x1024x64_S64x1024x64 := by
  show StableHlo.after hostOps1 (W2 m ρ c) (Proc.devRef .tc main_v11) = _
  after_results; rfl

theorem keys1 (c : Dev nD) : V3 m ρ c main_v14
    = shapeCast S64x1024x64 (headsOf (out0 m ρ c) ![0, 0, 1024] slices_S4x1024x3072_S4x1024x1024_0_0_1024) shapeCasts_S4x16x1024x64_S64x1024x64 := by
  show StableHlo.after hostOps1 (W2 m ρ c) (Proc.devRef .tc main_v14) = _
  after_results; rfl

theorem values1 (c : Dev nD) : V3 m ρ c main_v17
    = shapeCast S64x1024x64 (headsOf (out0 m ρ c) ![0, 0, 2048] slices_S4x1024x3072_S4x1024x1024_0_0_2048) shapeCasts_S4x16x1024x64_S64x1024x64 := by
  show StableHlo.after hostOps1 (W2 m ρ c) (Proc.devRef .tc main_v17) = _
  after_results; rfl

/-! ## Region 2's operands -/

/-- Region 1's output array as it stands when the region is left. -/
abbrev out1 (c : Dev nD) : (⟨S64x1024x64, .bf16⟩ : BufTy).Contents (Elt F) := W4 m ρ c (Proc.devRef .tc main_v18)

theorem lhs2 (c : Dev nD) : V5 m ρ c main_v22
    = shapeCast S4096x1024
        (shapeCast S4x1024x1024
          (transpose S4x1024x16x64 [0, 2, 1, 3] (shapeCast S4x16x1024x64 (out1 m ρ c) shapeCasts_S64x1024x64_S4x16x1024x64)
            transposes_S4x16x1024x64_S4x1024x16x64_0_2_1_3)
          shapeCasts_S4x1024x16x64_S4x1024x1024)
        shapeCasts_S4x1024x1024_S4096x1024 := by
  show StableHlo.after hostOps2 (W4 m ρ c) (Proc.devRef .tc main_v22) = _
  after_results; rfl

/-- The second bias reaches region 2 unchanged from the launch: nothing before it writes the argument. -/
theorem arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem bias2 (c : Dev nD) : V5 m ρ c main_v23
    = shapeCast S1x1024 (m ((c : Thread nD τ).loc main_arg4)) shapeCasts_S1024_S1x1024 := by
  show StableHlo.after hostOps2 (W4 m ρ c) (Proc.devRef .tc main_v23) = _
  after_results
  rw [arg4_at4]; rfl

/-- The converted second weight is written before region 0 and reaches region 2 untouched. -/
theorem weight2 (c : Dev nD) : V5 m ρ c main_v1
    = truncf .bf16 (m ((c : Thread nD τ).loc main_arg3)) bitsLt_bf16_f32 :=
  calc W5 m ρ c (Proc.devRef .tc main_v1)
    _ = W4 m ρ c (Proc.devRef .tc main_v1) := StableHlo.after_of_forall_not_mem (b := Proc.devRef .tc main_v1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)
    _ = truncf .bf16 (m ((c : Thread nD τ).loc main_arg3)) bitsLt_bf16_f32 := by
        show StableHlo.after hostOps0 (W0 m ρ c) (Proc.devRef .tc main_v1) = _
        after_results

/-! ## The result -/

/-- Region 2's output array as it stands when the region is left. -/
abbrev out2 (c : Dev nD) : (⟨S4096x1024, .f32⟩ : BufTy).Contents (Elt F) := W6 m ρ c (Proc.devRef .tc main_v24)

theorem result (c : Dev nD) : W7 m ρ c (Proc.devRef .tc main_v25)
    = shapeCast S4x1024x1024 (out2 m ρ c) shapeCasts_S4096x1024_S4x1024x1024 := by
  show StableHlo.after hostOps3 (W6 m ρ c) (Proc.devRef .tc main_v25) = _
  after_results; rfl

end Cert.KernelIdeal.Boundary

end
-- ==== Proof.ScaleMask.lean ====
/-
  The two places where the programs spell the masked, scaled score differently, as laws of the extended reals.
  * Dividing by the square root of 64 is multiplying by the dyadic 1/8.
  * A 0/1 mask applied multiplicatively, `s · b - 10000 · (1 - b)`, is `s` where `b = 1` and `-10000` where `b = 0`:
    in the extended reals `x · 0 = 0` for every `x`, so no finiteness of `s` is needed.
  * The maximum of -∞ and a maximum taken from -∞ is that maximum.
-/
import Idealize.ShloMosaic.PureOps.Ideal

noncomputable section

namespace Cert.ScaleMask

open Idealize.ShloMosaic

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

theorem ofBits_tenThousand : Ideal.ofBits .f32 0x461C4000#32 = ((10000 : ℝ) : EReal) := by
  simp [Ideal.ofBits, Ideal.ieee, -EReal.coe_mul]; norm_num

theorem ofBits_negTenThousand : Ideal.ofBits .f32 0xC61C4000#32 = ((-10000 : ℝ) : EReal) := by
  simp [Ideal.ofBits, Ideal.ieee, -EReal.coe_mul]; norm_num

theorem ofBits_negInf : Ideal.ofBits .f32 0xFF800000#32 = ⊥ := by
  simp [Ideal.ofBits, Ideal.ieee]

/-- `s / √64 = s · (1/8)`. -/
theorem scale_eq (s : EReal) :
    Ideal.div s (Ideal.sqrt (Ideal.ofBits .f32 0x42800000#32)) = s * Ideal.ofBits .f32 0x3E000000#32 := by
  have h8 : Real.sqrt 64 = 8 := by
    rw [show (64 : ℝ) = 8 ^ 2 by norm_num]; exact Real.sqrt_sq (by norm_num)
  rw [ofBits_64, ofBits_eighth, Ideal.sqrt_coe, if_neg (by norm_num), h8]
  exact Ideal.div_coe (by norm_num) s

/-- On and below the diagonal the multiplicative mask keeps the score. -/
theorem mask_keep (s : EReal) :
    s * Ideal.ofBits .f32 0x3F800000#32
      - Ideal.ofBits .f32 0x461C4000#32 * (Ideal.ofBits .f32 0x3F800000#32 - Ideal.ofBits .f32 0x3F800000#32) = s := by
  rw [ofBits_one, mul_one]
  have h : ((1 : EReal) - 1) = 0 := by
    rw [show (1 : EReal) = ((1 : ℝ) : EReal) from rfl, ← EReal.coe_sub]; simp
  rw [h, mul_zero, sub_zero]

/-- Above the diagonal it replaces the score by -10000, whatever the score. -/
theorem mask_drop (s : EReal) :
    s * Ideal.ofBits .f32 0x00000000#32
      - Ideal.ofBits .f32 0x461C4000#32 * (Ideal.ofBits .f32 0x3F800000#32 - Ideal.ofBits .f32 0x00000000#32)
      = Ideal.ofBits .f32 0xC61C4000#32 := by
  rw [ofBits_zero, ofBits_one, mul_zero, sub_zero, mul_one, zero_sub, ofBits_tenThousand, ofBits_negTenThousand]
  rw [← EReal.coe_neg]

/-- A maximum folded from -∞ is not below -∞. -/
theorem max_negInf_fold (w : Fin 1024 → EReal) :
    max (Ideal.ofBits .f32 0xFF800000#32) ((Finset.univ : Finset (Fin 1024)).fold max (Ideal.ofBits .f32 0xFF800000#32) w)
      = (Finset.univ : Finset (Fin 1024)).fold max (Ideal.ofBits .f32 0xFF800000#32) w := by
  rw [ofBits_negInf]; exact max_eq_right bot_le

/-! ## The causal comparison on row and column numbers -/

theorem toInt_ofNat_small (n : Nat) (h : n < 1024) : (BitVec.ofNat 32 n).toInt = (n : Int) := by
  have h1 : (BitVec.ofNat 32 n).toNat = n := by rw [BitVec.toNat_ofNat]; omega
  rw [BitVec.toInt_eq_toNat_of_lt (by rw [h1]; omega), h1]

/-- The signed comparison `row ≥ column` of two 32-bit words holding numbers below 1024 is the comparison of the numbers. -/
theorem causal_bit (r c : Nat) (hr : r < 1024) (hc : c < 1024) :
    IntOp.cmpi .sge (BitVec.ofNat 32 r) (BitVec.ofNat 32 c) = if c ≤ r then 1#1 else 0#1 := by
  unfold IntOp.cmpi
  by_cases h : c ≤ r
  · have hs : (BitVec.ofNat 32 c).sle (BitVec.ofNat 32 r) = true :=
      BitVec.sle_iff_toInt_le.mpr (by rw [toInt_ofNat_small c hc, toInt_ofNat_small r hr]; omega)
    rw [if_pos h]; show BitVec.ofBool ((BitVec.ofNat 32 c).sle (BitVec.ofNat 32 r)) = 1#1
    rw [hs]; rfl
  · have hs : (BitVec.ofNat 32 c).sle (BitVec.ofNat 32 r) = false := by
      rw [Bool.eq_false_iff]; intro hh
      have := BitVec.sle_iff_toInt_le.mp hh
      rw [toInt_ofNat_small c hc, toInt_ofNat_small r hr] at this; omega
    rw [if_neg h]; show BitVec.ofBool ((BitVec.ofNat 32 c).sle (BitVec.ofNat 32 r)) = 0#1
    rw [hs]; rfl

theorem addi_zero32 (x : BitVec 32) : IntOp.addi x 0#32 = x := by unfold IntOp.addi; simp

end Cert.ScaleMask

end
-- ==== Proof.RefRead.lean ====
/-
  The reference program read at an index, in the vocabulary of the specification.
  Per batch entry b and head h, with Q, K, V the [1024, 64] slabs of the reference's three head-major arrays:
  * the masked scores `w · tril - 10000 · (1 - tril)` with `w = Q·Kᵀ / √64` are `maskedScore Q K`
    (the division by √64 is the product with 1/8, and the multiplicative 0/1 mask keeps or replaces);
  * jax's softmax (maximum from -∞, the guard `max(-∞, ·)`, exponentials, their sum from 0, the quotient) is `softmaxRow`;
  * the weights against V are `attnHead Q K V`.
  The two linear layers are read as a contraction over 1024 plus the bias entry.
-/
import proofs.«128924_j63247688401034_2_alg».proof.Proof.Gen.ReferenceIdeal.Read
import proofs.«128924_j63247688401034_2_alg».proof.Proof.Spec
import proofs.«128924_j63247688401034_2_alg».proof.Proof.ScaleMask
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S4x1024x1024, .f32⟩ : BufTy).Contents (Elt Ideal)) (x1 : (⟨S1024x3072, .f32⟩ : BufTy).Contents (Elt Ideal))
  (x2 : (⟨S3072, .f32⟩ : BufTy).Contents (Elt Ideal))

/-- The queries of batch entry `b`, head `h`: rows by features. -/
abbrev headQ (b : Fin 4) (h : Fin 16) : Fin 1024 → Fin 64 → EReal := fun r d => val_main_v8 (F := Ideal) x0 x1 x2 (ix4 b h r d)
/-- The keys of batch entry `b`, head `h`. -/
abbrev headK (b : Fin 4) (h : Fin 16) : Fin 1024 → Fin 64 → EReal := fun r d => val_main_v10 (F := Ideal) x0 x1 x2 (ix4 b h r d)
/-- The values of batch entry `b`, head `h`. -/
abbrev headV (b : Fin 4) (h : Fin 16) : Fin 1024 → Fin 64 → EReal := fun r d => val_main_v12 (F := Ideal) x0 x1 x2 (ix4 b h r d)

/-- The 0/1 lower-triangular mask at (r, c): one where c ≤ r. -/
theorem tril_apply (j : S1x1x1024x1024.Idx) (r c : Fin 1024) (hj : idx_main_v19 j = ix2 r c) :
    val_main_v19 (F := Ideal) j
      = if c.val ≤ r.val then Ideal.ofBits .f32 0x3F800000#32 else Ideal.ofBits .f32 0x00000000#32 := by
  rw [val_main_v19_apply, hj, val_main_v18_apply, val_main_call0_v4_apply, val_main_call0_v2_apply, val_main_call0_v0_apply,
    val_main_call0_v1_apply, val_main_call0_c_apply, val_main_call0_v3_apply, val_main_v17_apply, val_main_cst_0_apply,
    val_main_call0_v5_apply, val_main_call0_cst_apply]
  show Scalar.select (IntOp.cmpi .sge (IntOp.addi (BitVec.ofNat 32 r.val) 0#32) (BitVec.ofNat 32 c.val)) _ _ = _
  rw [Cert.ScaleMask.addi_zero32, Cert.ScaleMask.causal_bit r.val c.val r.isLt c.isLt]
  by_cases hc : c.val ≤ r.val
  · rw [if_pos hc, if_pos hc]; exact select_one _ _
  · rw [if_neg hc, if_neg hc]; exact select_zero _ _

/-- The scores before the mask: the dot product of query row r and key row c. -/
theorem dots_apply (b : Fin 4) (h : Fin 16) (r c : Fin 1024) :
    val_main_v13 (F := Ideal) x0 x1 x2 (ix4 b h r c) = ∑ d : Fin 64, headQ x0 x1 x2 b h r d * headK x0 x1 x2 b h c d := by
  rw [val_main_v13_apply]
  refine Finset.sum_congr rfl fun d _ => ?_
  have e1 : lidx_main_v13 (ix4 b h r c) d = ix4 b h r d := funext fun a => by
      match a with
      | ⟨0, _⟩ => rfl
      | ⟨1, _⟩ => rfl
      | ⟨2, _⟩ => rfl
      | ⟨3, _⟩ => rfl
  have e2 : ridx_main_v13 (ix4 b h r c) d = ix4 b h c d := funext fun a => by
      match a with
      | ⟨0, _⟩ => rfl
      | ⟨1, _⟩ => rfl
      | ⟨2, _⟩ => rfl
      | ⟨3, _⟩ => rfl
  rw [e1, e2]

/-- The masked, scaled scores are the specification's. -/
theorem masked_apply (b : Fin 4) (h : Fin 16) (r c : Fin 1024) :
    val_main_v27 (F := Ideal) x0 x1 x2 (ix4 b h r c)
      = Cert.Spec.maskedScore (headQ x0 x1 x2 b h) (headK x0 x1 x2 b h) r c := by
  have hm1 := tril_apply (idx_main_v20 (ix4 b h r c)) r c (funext fun a => by
      match a with
      | ⟨0, _⟩ => rfl
      | ⟨1, _⟩ => rfl)
  have hm2 := tril_apply (idx_main_v26 (ix4 b h r c)) r c (funext fun a => by
      match a with
      | ⟨0, _⟩ => rfl
      | ⟨1, _⟩ => rfl)
  rw [val_main_v27_apply, val_main_v21_apply, val_main_v16_apply, dots_apply, val_main_v15_apply, val_main_v14_apply,
    val_main_cst_apply, val_main_v20_apply, hm1, val_main_v26_apply, val_main_v25_apply, val_main_v24_apply,
    val_main_cst_2_apply, val_main_v23_apply, val_main_v22_apply, val_main_cst_1_apply, hm2]
  unfold Cert.Spec.maskedScore
  simp only [Ideal.subf_def, Ideal.mulf_def, Ideal.hostDivf_def, Ideal.hostUnary_sqrt_def, Ideal.ofBits_def]
  by_cases hc : c.val ≤ r.val
  · simp only [if_pos hc]; rw [Cert.ScaleMask.scale_eq]; exact Cert.ScaleMask.mask_keep _
  · simp only [if_neg hc]; exact Cert.ScaleMask.mask_drop _

/-- The row maximum jax's softmax subtracts is the specification's. -/
theorem rowmax_apply (b : Fin 4) (h : Fin 16) (r : Fin 1024) :
    val_main_v30 (F := Ideal) x0 x1 x2 (ix3 b h r)
      = Cert.Spec.rowMax (Cert.Spec.maskedScore (headQ x0 x1 x2 b h) (headK x0 x1 x2 b h) r) := by
  have hR : S4x16x1024x1024.Reduces [3] S4x16x1024 := by decide
  rw [val_main_v30_apply, val_main_v29_apply, val_main_cst_4_apply]
  unfold val_main_v28
  rw [Host.reduce_eq_fold_single FloatOps.maximumf _ _ reducesTo_S4x16x1024x1024_S4x16x1024_d3 hR h_S_ (ix3 b h r)]
  have hf : (val_main_v27 (F := Ideal) x0 x1 x2 ∘ hR.lift (ix3 b h r))
      = fun c : Fin 1024 => Cert.Spec.maskedScore (headQ x0 x1 x2 b h) (headK x0 x1 x2 b h) r c := funext fun c => by
    show val_main_v27 (F := Ideal) x0 x1 x2 (hR.lift (ix3 b h r) c) = _
    have e : hR.lift (ix3 b h r) c = ix4 b h r c := funext fun a => Fin.ext (by
      match a with
      | ⟨0, _⟩ => rfl
      | ⟨1, _⟩ => rfl
      | ⟨2, _⟩ => rfl
      | ⟨3, _⟩ => rfl)
    rw [e]; exact masked_apply x0 x1 x2 b h r c
  rw [hf]
  exact Cert.ScaleMask.max_negInf_fold _

/-- The shifted exponentials. -/
theorem exps_apply (b : Fin 4) (h : Fin 16) (r c : Fin 1024) :
    val_main_v34 (F := Ideal) x0 x1 x2 (ix4 b h r c)
      = Ideal.exp (Cert.Spec.maskedScore (headQ x0 x1 x2 b h) (headK x0 x1 x2 b h) r c
          - Cert.Spec.rowMax (Cert.Spec.maskedScore (headQ x0 x1 x2 b h) (headK x0 x1 x2 b h) r)) := by
  have e : idx_main_v31 (idx_main_v32 (ix4 b h r c)) = ix3 b h r := funext fun a => by
      match a with
      | ⟨0, _⟩ => rfl
      | ⟨1, _⟩ => rfl
      | ⟨2, _⟩ => rfl
  rw [val_main_v34_apply, val_main_v33_apply, masked_apply, val_main_v32_apply, val_main_v31_apply, e, rowmax_apply]
  rfl

/-- The softmax weights are the specification's. -/
theorem probs_apply (b : Fin 4) (h : Fin 16) (r c : Fin 1024) :
    val_main_v38 (F := Ideal) x0 x1 x2 (ix4 b h r c)
      = Cert.Spec.softmaxRow (Cert.Spec.maskedScore (headQ x0 x1 x2 b h) (headK x0 x1 x2 b h) r) c := by
  have e : idx_main_v36 (idx_main_v37 (ix4 b h r c)) = ix3 b h r := funext fun a => by
      match a with
      | ⟨0, _⟩ => rfl
      | ⟨1, _⟩ => rfl
      | ⟨2, _⟩ => rfl
  have hsum : ∑ k : Fin 1024, val_main_v34 (F := Ideal) x0 x1 x2 (idx_main_v35 (ix3 b h r) k)
      = ∑ c' : Fin 1024, Ideal.exp (Cert.Spec.maskedScore (headQ x0 x1 x2 b h) (headK x0 x1 x2 b h) r c'
          - Cert.Spec.rowMax (Cert.Spec.maskedScore (headQ x0 x1 x2 b h) (headK x0 x1 x2 b h) r)) :=
    Finset.sum_congr rfl fun k _ => by
      have ek : idx_main_v35 (ix3 b h r) k = ix4 b h r k := funext fun a => by
        match a with
        | ⟨0, _⟩ => rfl
        | ⟨1, _⟩ => rfl
        | ⟨2, _⟩ => rfl
        | ⟨3, _⟩ => rfl
      rw [ek, exps_apply]
  rw [val_main_v38_apply, exps_apply, val_main_v37_apply, val_main_v36_apply, e, val_main_v35_apply, val_main_cst_5_apply, hsum]
  unfold Cert.Spec.softmaxRow
  simp only [Ideal.hostDivf_def, Ideal.ofBits_def, Ideal.ofBits_zero_f32, zero_add]

/-- One head of the reference's attention output is the specification's. -/
theorem attn_apply (b : Fin 4) (h : Fin 16) (r : Fin 1024) (d : Fin 64) :
    val_main_v39 (F := Ideal) x0 x1 x2 (ix4 b h r d)
      = Cert.Spec.attnHead (headQ x0 x1 x2 b h) (headK x0 x1 x2 b h) (headV x0 x1 x2 b h) r d := by
  rw [val_main_v39_apply]
  unfold Cert.Spec.attnHead
  refine Finset.sum_congr rfl fun k _ => ?_
  have e1 : lidx_main_v39 (ix4 b h r d) k = ix4 b h r k := funext fun a => by
      match a with
      | ⟨0, _⟩ => rfl
      | ⟨1, _⟩ => rfl
      | ⟨2, _⟩ => rfl
      | ⟨3, _⟩ => rfl
  have e2 : ridx_main_v39 (ix4 b h r d) k = ix4 b h k d := funext fun a => by
      match a with
      | ⟨0, _⟩ => rfl
      | ⟨1, _⟩ => rfl
      | ⟨2, _⟩ => rfl
      | ⟨3, _⟩ => rfl
  rw [e1, e2, probs_apply]

/-! ## The two linear layers -/

/-- The first linear layer at (b, s, e): row (b, s) of the input against column e of the weight, plus the bias entry. -/
theorem qkv_apply (b : Fin 4) (s : Fin 1024) (e : Fin 3072) :
    val_main_v3 (F := Ideal) x0 x1 x2 (ix3 b s e) = (∑ k : Fin 1024, x0 (ix3 b s k) * x1 (ix2 k e)) + x2 (ix1 e) := by
  rw [val_main_v3_apply, val_main_v0_apply, val_main_v2_apply, val_main_v1_apply]
  have e3 : idx_main_v1 (idx_main_v2 (ix3 b s e)) = ix1 e := funext fun a => by
      match a with
      | ⟨0, _⟩ => rfl
  rw [e3]
  refine congrArg (· + x2 (ix1 e)) (Finset.sum_congr rfl fun k _ => ?_)
  have e1 : lidx_main_v0 (ix3 b s e) k = ix3 b s k := funext fun a => by
      match a with
      | ⟨0, _⟩ => rfl
      | ⟨1, _⟩ => rfl
      | ⟨2, _⟩ => rfl
  have e2 : ridx_main_v0 (ix3 b s e) k = ix2 k e := funext fun a => by
      match a with
      | ⟨0, _⟩ => rfl
      | ⟨1, _⟩ => rfl
  rw [e1, e2]

/-- The second linear layer at (b, s, e), over the merged attention output. -/
theorem out_apply (x3 : (⟨S1024x1024, .f32⟩ : BufTy).Contents (Elt Ideal)) (x4 : (⟨S1024, .f32⟩ : BufTy).Contents (Elt Ideal))
    (b : Fin 4) (s : Fin 1024) (e : Fin 1024) :
    val_main_v45 (F := Ideal) x0 x1 x2 x3 x4 (ix3 b s e)
      = (∑ k : Fin 1024, val_main_v41 (F := Ideal) x0 x1 x2 (ix3 b s k) * x3 (ix2 k e)) + x4 (ix1 e) := by
  rw [val_main_v45_apply, val_main_v42_apply, val_main_v44_apply, val_main_v43_apply]
  have e3 : idx_main_v43 (idx_main_v44 (ix3 b s e)) = ix1 e := funext fun a => by
      match a with
      | ⟨0, _⟩ => rfl
  rw [e3]
  refine congrArg (· + x4 (ix1 e)) (Finset.sum_congr rfl fun k _ => ?_)
  have e1 : lidx_main_v42 (ix3 b s e) k = ix3 b s k := funext fun a => by
      match a with
      | ⟨0, _⟩ => rfl
      | ⟨1, _⟩ => rfl
      | ⟨2, _⟩ => rfl
  have e2 : ridx_main_v42 (ix3 b s e) k = ix2 k e := funext fun a => by
      match a with
      | ⟨0, _⟩ => rfl
      | ⟨1, _⟩ => rfl
  rw [e1, e2]

end Cert.ReferenceIdeal.RefValue

end
-- ==== Proof.LibReshape.lean ====
/-
  Reshapes that merge or split the two leading axes, read at an index given by its coordinates.
  A reshape keeps the row-major position, so an entry (a, b, …) of an array of leading extents A × B is the entry
  (a · B + b, …) of the array whose leading axis has extent A · B, and conversely; a vector of length n is the one row of
  its [1, n] view. General lemmas over any extents and element type.
-/
import Idealize.ShloMosaic.Lib.Pipeline.Value
import Idealize.ShloMosaic.Lib.ValueIdx

namespace Idealize.ShloMosaic.ReshapeAt

open Idealize.ShloMosaic Idealize.ShloMosaic.ValueIdx

variable {α : Type}

/-- [A, B, C] viewed as [M, C] with M = A · B: row a · B + b of the view is row (a, b) of the array. -/
theorem merge3 {A B C M : Nat} (x : (⟨3, ![A, B, C]⟩ : Shape).Idx → α)
    (h : (⟨3, ![A, B, C]⟩ : Shape).ShapeCasts ⟨2, ![M, C]⟩) (a : Fin A) (b : Fin B) (c : Fin C) (ρ : Fin M)
    (hρ : ρ.val = a.val * B + b.val) : shapeCast ⟨2, ![M, C]⟩ x h (ix2 ρ c) = x (ix3 a b c) :=
  shapeCast_apply x h (ix2 ρ c) (ix3 a b c) (by
    rw [Shape.rowMajor_val_three, Shape.rowMajor_val_two]
    show (a.val * B + b.val) * C + c.val = ρ.val * C + c.val
    rw [hρ])

/-- [M, C] with M = A · B viewed as [A, B, C]: entry (a, b, c) of the view is entry (a · B + b, c) of the array. -/
theorem split2 {A B C M : Nat} (x : (⟨2, ![M, C]⟩ : Shape).Idx → α)
    (h : (⟨2, ![M, C]⟩ : Shape).ShapeCasts ⟨3, ![A, B, C]⟩) (a : Fin A) (b : Fin B) (c : Fin C) (ρ : Fin M)
    (hρ : ρ.val = a.val * B + b.val) : shapeCast ⟨3, ![A, B, C]⟩ x h (ix3 a b c) = x (ix2 ρ c) :=
  shapeCast_apply x h (ix3 a b c) (ix2 ρ c) (by
    rw [Shape.rowMajor_val_three, Shape.rowMajor_val_two]
    show ρ.val * C + c.val = (a.val * B + b.val) * C + c.val
    rw [hρ])

/-- [A, B, C, D] viewed as [M, C, D] with M = A · B. -/
theorem merge4 {A B C D M : Nat} (x : (⟨4, ![A, B, C, D]⟩ : Shape).Idx → α)
    (h : (⟨4, ![A, B, C, D]⟩ : Shape).ShapeCasts ⟨3, ![M, C, D]⟩) (a : Fin A) (b : Fin B) (c : Fin C) (d : Fin D) (ρ : Fin M)
    (hρ : ρ.val = a.val * B + b.val) : shapeCast ⟨3, ![M, C, D]⟩ x h (ix3 ρ c d) = x (ix4 a b c d) :=
  shapeCast_apply x h (ix3 ρ c d) (ix4 a b c d) (by
    rw [Shape.rowMajor_val_four, Shape.rowMajor_val_three]
    show ((a.val * B + b.val) * C + c.val) * D + d.val = (ρ.val * C + c.val) * D + d.val
    rw [hρ])

/-- [M, C, D] with M = A · B viewed as [A, B, C, D]. -/
theorem split3 {A B C D M : Nat} (x : (⟨3, ![M, C, D]⟩ : Shape).Idx → α)
    (h : (⟨3, ![M, C, D]⟩ : Shape).ShapeCasts ⟨4, ![A, B, C, D]⟩) (a : Fin A) (b : Fin B) (c : Fin C) (d : Fin D) (ρ : Fin M)
    (hρ : ρ.val = a.val * B + b.val) : shapeCast ⟨4, ![A, B, C, D]⟩ x h (ix4 a b c d) = x (ix3 ρ c d) :=
  shapeCast_apply x h (ix4 a b c d) (ix3 ρ c d) (by
    rw [Shape.rowMajor_val_four, Shape.rowMajor_val_three]
    show (ρ.val * C + c.val) * D + d.val = ((a.val * B + b.val) * C + c.val) * D + d.val
    rw [hρ])

/-- A vector of length n viewed as the one row of a [1, n] array. -/
theorem row1 {n : Nat} (x : (⟨1, ![n]⟩ : Shape).Idx → α) (h : (⟨1, ![n]⟩ : Shape).ShapeCasts ⟨2, ![1, n]⟩) (e : Fin n) :
    shapeCast ⟨2, ![1, n]⟩ x h (ix2 (0 : Fin 1) e) = x (ix1 e) :=
  shapeCast_apply x h (ix2 (0 : Fin 1) e) (ix1 e) (by
    rw [Shape.rowMajor_val_one, Shape.rowMajor_val_two]
    show e.val = 0 * n + e.val
    omega)

end Idealize.ShloMosaic.ReshapeAt
-- ==== Proof.Bridge.lean ====
/-
  The kernel program's result is the reference's result, stage by stage.
  With x, Wa, ba, Wp, bp the five argument arrays:
  1. the first region's output, viewed as [4, 1024, 3072], is the reference's first linear layer x·Wa + ba
     (row b·1024 + s of the 4096 is row (b, s); the format changes are the identity on the extended reals);
  2. both programs then take the same three feature slices, split them into heads and move them head-major, so the
     kernel's queries, keys and values are the reference's as [4, 16, 1024, 64] arrays; the kernel's extra view
     [64, 1024, 64] puts head (b, h) at index b·16 + h;
  3. the second region's output, viewed as [4, 16, 1024, 64], is the reference's attention output: both are one
     head of causal attention of the same three slabs;
  4. both programs merge the heads back by the same transpose and reshape;
  5. the third region's output, viewed as [4, 1024, 1024], is the reference's second linear layer.
-/
import proofs.«128924_j63247688401034_2_alg».proof.Proof.Boundary
import proofs.«128924_j63247688401034_2_alg».proof.Proof.RefRead
import proofs.«128924_j63247688401034_2_alg».proof.Proof.LibReshape

set_option maxRecDepth 16384

noncomputable section

namespace Cert.Bridge

open Cert.KernelIdeal Cert.KernelIdeal.Gen Cert.KernelIdeal.Boundary
open Cert.ReferenceIdeal.Read (val_main_v3 val_main_v4 val_main_v5 val_main_v6 val_main_v7 val_main_v8 val_main_v9 val_main_v10 val_main_v11 val_main_v12 val_main_v39 val_main_v40 val_main_v41 val_main_v45)
open Cert.ReferenceIdeal.RefValue (headQ headK headV)
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The five argument arrays as launched. -/
abbrev argX : S4x1024x1024.Idx → EReal := m ((c : Thread nD τ).loc main_arg0)
abbrev argWa : S1024x3072.Idx → EReal := m ((c : Thread nD τ).loc main_arg1)
abbrev argBa : S3072.Idx → EReal := m ((c : Thread nD τ).loc main_arg2)
abbrev argWp : S1024x1024.Idx → EReal := m ((c : Thread nD τ).loc main_arg3)
abbrev argBp : S1024.Idx → EReal := m ((c : Thread nD τ).loc main_arg4)

/-- A linear layer at the entry (ρ, e). -/
theorem affine_apply {M K N : Nat} (a : (⟨2, ![M, K]⟩ : Shape).Idx → EReal) (w : (⟨2, ![K, N]⟩ : Shape).Idx → EReal)
    (b : (⟨2, ![1, N]⟩ : Shape).Idx → EReal) (ρ : Fin M) (e : Fin N) :
    Cert.Spec.affine a w b (ix2 ρ e) = (∑ k : Fin K, a (ix2 ρ k) * w (ix2 k e)) + b (ix2 (0 : Fin 1) e) := rfl

/-! ## 1. The first linear layer -/

theorem qkv_eq
    (H0 : (out0 m ρ c : S4096x3072.Idx → EReal)
      = Cert.Spec.affine (M := 4096) (K := 1024) (N := 3072) (V1 m ρ c main_v2) (V1 m ρ c main_v0) (V1 m ρ c main_v3)) :
    (shapeCast S4x1024x3072 (out0 m ρ c) shapeCasts_S4096x3072_S4x1024x3072 : S4x1024x3072.Idx → EReal)
      = val_main_v3 (F := Ideal) (argX m c) (argWa m c) (argBa m c) := by
  funext i
  obtain ⟨b, s, e, rfl⟩ : ∃ (b : Fin 4) (s : Fin 1024) (e : Fin 3072), i = ix3 b s e := ⟨i 0, i 1, i 2, eq_ix3 i⟩
  rw [Cert.ReferenceIdeal.RefValue.qkv_apply]
  have hb := b.isLt
  have hs := s.isLt
  refine (ReshapeAt.split2 (A := 4) (B := 1024) (C := 3072) (M := 4096) (out0 m ρ c) shapeCasts_S4096x3072_S4x1024x3072 b s e
    ⟨b.val * 1024 + s.val, by omega⟩ rfl).trans ?_
  rw [H0, affine_apply, lhs0, weight0, bias0]
  refine congrArg₂ (· + ·) (Finset.sum_congr rfl fun k _ => ?_) ?_
  · refine congrArg₂ (· * ·) ?_ rfl
    exact ReshapeAt.merge3 (A := 4) (B := 1024) (C := 1024) (M := 4096) _ shapeCasts_S4x1024x1024_S4096x1024 b s k ⟨b.val * 1024 + s.val, by omega⟩ rfl
  · exact ReshapeAt.row1 _ shapeCasts_S3072_S1x3072 e

/-! ## 2. The head-major queries, keys and values -/

theorem queries_eq
    (H0 : (out0 m ρ c : S4096x3072.Idx → EReal)
      = Cert.Spec.affine (M := 4096) (K := 1024) (N := 3072) (V1 m ρ c main_v2) (V1 m ρ c main_v0) (V1 m ρ c main_v3)) :
    (headsOf (out0 m ρ c) ![0, 0, 0] slices_S4x1024x3072_S4x1024x1024_0_0_0 : S4x16x1024x64.Idx → EReal)
      = val_main_v8 (F := Ideal) (argX m c) (argWa m c) (argBa m c) := by
  unfold val_main_v8 val_main_v7 val_main_v4
  rw [← qkv_eq m ρ c H0]

theorem keys_eq
    (H0 : (out0 m ρ c : S4096x3072.Idx → EReal)
      = Cert.Spec.affine (M := 4096) (K := 1024) (N := 3072) (V1 m ρ c main_v2) (V1 m ρ c main_v0) (V1 m ρ c main_v3)) :
    (headsOf (out0 m ρ c) ![0, 0, 1024] slices_S4x1024x3072_S4x1024x1024_0_0_1024 : S4x16x1024x64.Idx → EReal)
      = val_main_v10 (F := Ideal) (argX m c) (argWa m c) (argBa m c) := by
  unfold val_main_v10 val_main_v9 val_main_v5
  rw [← qkv_eq m ρ c H0]

theorem values_eq
    (H0 : (out0 m ρ c : S4096x3072.Idx → EReal)
      = Cert.Spec.affine (M := 4096) (K := 1024) (N := 3072) (V1 m ρ c main_v2) (V1 m ρ c main_v0) (V1 m ρ c main_v3)) :
    (headsOf (out0 m ρ c) ![0, 0, 2048] slices_S4x1024x3072_S4x1024x1024_0_0_2048 : S4x16x1024x64.Idx → EReal)
      = val_main_v12 (F := Ideal) (argX m c) (argWa m c) (argBa m c) := by
  unfold val_main_v12 val_main_v11 val_main_v6
  rw [← qkv_eq m ρ c H0]

/-! ## 3. Attention -/

theorem attn_eq
    (H0 : (out0 m ρ c : S4096x3072.Idx → EReal)
      = Cert.Spec.affine (M := 4096) (K := 1024) (N := 3072) (V1 m ρ c main_v2) (V1 m ρ c main_v0) (V1 m ρ c main_v3))
    (H1 : (out1 m ρ c : S64x1024x64.Idx → EReal)
      = fun i => Cert.Spec.attnHead (fun r d => V3 m ρ c main_v11 (ix3 (i 0) r d)) (fun r d => V3 m ρ c main_v14 (ix3 (i 0) r d))
          (fun r d => V3 m ρ c main_v17 (ix3 (i 0) r d)) (i 1) (i 2)) :
    (shapeCast S4x16x1024x64 (out1 m ρ c) shapeCasts_S64x1024x64_S4x16x1024x64 : S4x16x1024x64.Idx → EReal)
      = val_main_v39 (F := Ideal) (argX m c) (argWa m c) (argBa m c) := by
  funext i
  obtain ⟨b, h, r, d, rfl⟩ : ∃ (b : Fin 4) (h : Fin 16) (r : Fin 1024) (d : Fin 64), i = ix4 b h r d :=
    ⟨i 0, i 1, i 2, i 3, eq_ix4 i⟩
  rw [Cert.ReferenceIdeal.RefValue.attn_apply]
  have hb := b.isLt
  have hh := h.isLt
  refine (ReshapeAt.split3 (A := 4) (B := 16) (C := 1024) (D := 64) (M := 64) (out1 m ρ c) shapeCasts_S64x1024x64_S4x16x1024x64 b h r d
    ⟨b.val * 16 + h.val, by omega⟩ rfl).trans ?_
  rw [H1]
  have hq : (fun (r : Fin 1024) (d : Fin 64) => (V3 m ρ c main_v11 (ix3 (⟨b.val * 16 + h.val, by omega⟩ : Fin 64) r d) : EReal))
      = headQ (argX m c) (argWa m c) (argBa m c) b h := by
    funext r d
    rw [queries1]
    refine (ReshapeAt.merge4 (A := 4) (B := 16) (C := 1024) (D := 64) (M := 64) _ shapeCasts_S4x16x1024x64_S64x1024x64 b h r d
      ⟨b.val * 16 + h.val, by omega⟩ rfl).trans ?_
    exact congrFun (queries_eq m ρ c H0) (ix4 b h r d)
  have hk : (fun (r : Fin 1024) (d : Fin 64) => (V3 m ρ c main_v14 (ix3 (⟨b.val * 16 + h.val, by omega⟩ : Fin 64) r d) : EReal))
      = headK (argX m c) (argWa m c) (argBa m c) b h := by
    funext r d
    rw [keys1]
    refine (ReshapeAt.merge4 (A := 4) (B := 16) (C := 1024) (D := 64) (M := 64) _ shapeCasts_S4x16x1024x64_S64x1024x64 b h r d
      ⟨b.val * 16 + h.val, by omega⟩ rfl).trans ?_
    exact congrFun (keys_eq m ρ c H0) (ix4 b h r d)
  have hv : (fun (r : Fin 1024) (d : Fin 64) => (V3 m ρ c main_v17 (ix3 (⟨b.val * 16 + h.val, by omega⟩ : Fin 64) r d) : EReal))
      = headV (argX m c) (argWa m c) (argBa m c) b h := by
    funext r d
    rw [values1]
    refine (ReshapeAt.merge4 (A := 4) (B := 16) (C := 1024) (D := 64) (M := 64) _ shapeCasts_S4x16x1024x64_S64x1024x64 b h r d
      ⟨b.val * 16 + h.val, by omega⟩ rfl).trans ?_
    exact congrFun (values_eq m ρ c H0) (ix4 b h r d)
  show Cert.Spec.attnHead (fun r d => V3 m ρ c main_v11 (ix3 (⟨b.val * 16 + h.val, by omega⟩ : Fin 64) r d))
      (fun r d => V3 m ρ c main_v14 (ix3 (⟨b.val * 16 + h.val, by omega⟩ : Fin 64) r d))
      (fun r d => V3 m ρ c main_v17 (ix3 (⟨b.val * 16 + h.val, by omega⟩ : Fin 64) r d)) r d = _
  rw [hq, hk, hv]

/-! ## 4. The heads merged back -/

theorem merged_eq
    (H0 : (out0 m ρ c : S4096x3072.Idx → EReal)
      = Cert.Spec.affine (M := 4096) (K := 1024) (N := 3072) (V1 m ρ c main_v2) (V1 m ρ c main_v0) (V1 m ρ c main_v3))
    (H1 : (out1 m ρ c : S64x1024x64.Idx → EReal)
      = fun i => Cert.Spec.attnHead (fun r d => V3 m ρ c main_v11 (ix3 (i 0) r d)) (fun r d => V3 m ρ c main_v14 (ix3 (i 0) r d))
          (fun r d => V3 m ρ c main_v17 (ix3 (i 0) r d)) (i 1) (i 2)) :
    (shapeCast S4x1024x1024
        (transpose S4x1024x16x64 [0, 2, 1, 3] (shapeCast S4x16x1024x64 (out1 m ρ c) shapeCasts_S64x1024x64_S4x16x1024x64)
          transposes_S4x16x1024x64_S4x1024x16x64_0_2_1_3)
        shapeCasts_S4x1024x16x64_S4x1024x1024 : S4x1024x1024.Idx → EReal)
      = val_main_v41 (F := Ideal) (argX m c) (argWa m c) (argBa m c) := by
  unfold val_main_v41 val_main_v40
  rw [← attn_eq m ρ c H0 H1]

/-! ## 5. The second linear layer: the result -/

theorem result_eq
    (H0 : (out0 m ρ c : S4096x3072.Idx → EReal)
      = Cert.Spec.affine (M := 4096) (K := 1024) (N := 3072) (V1 m ρ c main_v2) (V1 m ρ c main_v0) (V1 m ρ c main_v3))
    (H1 : (out1 m ρ c : S64x1024x64.Idx → EReal)
      = fun i => Cert.Spec.attnHead (fun r d => V3 m ρ c main_v11 (ix3 (i 0) r d)) (fun r d => V3 m ρ c main_v14 (ix3 (i 0) r d))
          (fun r d => V3 m ρ c main_v17 (ix3 (i 0) r d)) (i 1) (i 2))
    (H2 : (out2 m ρ c : S4096x1024.Idx → EReal)
      = Cert.Spec.affine (M := 4096) (K := 1024) (N := 1024) (V5 m ρ c main_v22) (V5 m ρ c main_v1) (V5 m ρ c main_v23)) :
    (W7 m ρ c (Proc.devRef .tc main_v25) : S4x1024x1024.Idx → EReal)
      = val_main_v45 (F := Ideal) (argX m c) (argWa m c) (argBa m c) (argWp m c) (argBp m c) := by
  rw [Cert.KernelIdeal.Boundary.result]
  funext i
  obtain ⟨b, s, e, rfl⟩ : ∃ (b : Fin 4) (s : Fin 1024) (e : Fin 1024), i = ix3 b s e := ⟨i 0, i 1, i 2, eq_ix3 i⟩
  rw [Cert.ReferenceIdeal.RefValue.out_apply]
  have hb := b.isLt
  have hs := s.isLt
  refine (ReshapeAt.split2 (A := 4) (B := 1024) (C := 1024) (M := 4096) (out2 m ρ c) shapeCasts_S4096x1024_S4x1024x1024 b s e
    ⟨b.val * 1024 + s.val, by omega⟩ rfl).trans ?_
  rw [H2, affine_apply, lhs2, weight2, bias2]
  refine congrArg₂ (· + ·) (Finset.sum_congr rfl fun k _ => ?_) ?_
  · refine congrArg₂ (· * ·) ?_ rfl
    refine (ReshapeAt.merge3 (A := 4) (B := 1024) (C := 1024) (M := 4096) _ shapeCasts_S4x1024x1024_S4096x1024 b s k
      ⟨b.val * 1024 + s.val, by omega⟩ rfl).trans ?_
    exact congrFun (merged_eq m ρ c H0 H1) (ix3 b s k)
  · exact ReshapeAt.row1 _ shapeCasts_S1024_S1x1024 e

end Cert.Bridge

end
-- ==== Proof.lean ====
/-
  The certificate's five claims for the multi-head causal self-attention layer.

  The kernel program runs three regions — the linear layer x·Wa + ba in blocks of 512 rows, causal attention one
  (batch, head) pair per grid point, and the linear layer a·Wp + bp in blocks of 512 rows — among host operations that
  only re-lay arrays out (reshapes, three feature slices, head-major transposes) or change a float format. At the ideal
  instance a format change is the identity, a block-wise matmul into a zero accumulator is the whole contraction, and the
  region's blocks tile its output, so each region's output array is one whole-array function of its operand arrays.
  The reference computes the same three stages with jnp: its division of the scores by √64 is the kernel's product with
  1/8, its multiplicative 0/1 mask `w·b - 10000·(1 - b)` is the kernel's `select` between the score and -10000 (no
  finiteness is needed: x·0 = 0 for every extended real), and its softmax differs from the kernel's only by the guard
  `max(-∞, ·)` on a maximum already taken from -∞. So the two programs end with the same result array; the three frames
  are the generated ones, and the ideal pass rewrote nothing, so `preserves` is trivial.
-/
import proofs.«128924_j63247688401034_2_alg».proof.Defs
import proofs.«128924_j63247688401034_2_alg».proof.Proof.Gen.Kernel
import proofs.«128924_j63247688401034_2_alg».proof.Proof.Gen.Kernel.Skeleton
import proofs.«128924_j63247688401034_2_alg».proof.Proof.Gen.Kernel.Launch
import proofs.«128924_j63247688401034_2_alg».proof.Proof.Gen.Kernel.Points
import proofs.«128924_j63247688401034_2_alg».proof.Proof.Gen.Kernel.Frame
import proofs.«128924_j63247688401034_2_alg».proof.Proof.Gen.KernelIdeal
import proofs.«128924_j63247688401034_2_alg».proof.Proof.Gen.KernelIdeal.Skeleton
import proofs.«128924_j63247688401034_2_alg».proof.Proof.Gen.KernelIdeal.Launch
import proofs.«128924_j63247688401034_2_alg».proof.Proof.Gen.KernelIdeal.Points
import proofs.«128924_j63247688401034_2_alg».proof.Proof.Gen.KernelIdeal.Frame
import proofs.«128924_j63247688401034_2_alg».proof.Proof.Gen.ReferenceIdeal
import proofs.«128924_j63247688401034_2_alg».proof.Proof.Gen.Pre_finite_inputs
import proofs.«128924_j63247688401034_2_alg».proof.Proof.Gen.ReferenceIdeal.Run
import proofs.«128924_j63247688401034_2_alg».proof.Proof.Gen.ReferenceIdeal.Read
import proofs.«128924_j63247688401034_2_alg».proof.Proof.KernelRun
import proofs.«128924_j63247688401034_2_alg».proof.Proof.LinearBlocks
import proofs.«128924_j63247688401034_2_alg».proof.Proof.AttentionBlocks
import proofs.«128924_j63247688401034_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## The three regions' outputs at the contents the run finds -/

open Cert.KernelIdeal Cert.KernelIdeal.Gen in
/-- Region 0 leaves the first linear layer of its operands. -/
theorem region0 (m : (ℓ : Loc nD τ sig) → Buf (Elt Ideal) ℓ) (ρ : Dev nD → PrngReg) (c : Dev nD) :
    (Cert.KernelIdeal.Boundary.out0 m ρ c : S4096x3072.Idx → EReal)
      = Cert.Spec.affine (M := 4096) (K := 1024) (N := 3072) (V1 m ρ c main_v2) (V1 m ρ c main_v0) (V1 m ρ c main_v3) :=
  (W2_arr m ρ c 3).trans (Cert.KernelIdeal.LinearBlocks.final0 (V1 m ρ) c)

open Cert.KernelIdeal Cert.KernelIdeal.Gen Idealize.ShloMosaic.ValueIdx in
/-- Region 1 leaves, per (batch, head) index, causal attention of that block of its three operands. -/
theorem region1 (m : (ℓ : Loc nD τ sig) → Buf (Elt Ideal) ℓ) (ρ : Dev nD → PrngReg) (c : Dev nD) :
    (Cert.KernelIdeal.Boundary.out1 m ρ c : S64x1024x64.Idx → EReal)
      = fun i => Cert.Spec.attnHead (fun r d => V3 m ρ c main_v11 (ix3 (i 0) r d)) (fun r d => V3 m ρ c main_v14 (ix3 (i 0) r d))
          (fun r d => V3 m ρ c main_v17 (ix3 (i 0) r d)) (i 1) (i 2) :=
  (W4_arr m ρ c 3).trans (Cert.KernelIdeal.AttentionBlocks.final1 (V3 m ρ) c)

open Cert.KernelIdeal Cert.KernelIdeal.Gen in
/-- Region 2 leaves the second linear layer of its operands. -/
theorem region2 (m : (ℓ : Loc nD τ sig) → Buf (Elt Ideal) ℓ) (ρ : Dev nD → PrngReg) (c : Dev nD) :
    (Cert.KernelIdeal.Boundary.out2 m ρ c : S4096x1024.Idx → EReal)
      = Cert.Spec.affine (M := 4096) (K := 1024) (N := 1024) (V5 m ρ c main_v22) (V5 m ρ c main_v1) (V5 m ρ c main_v23) :=
  (W6_arr m ρ c 3).trans (Cert.KernelIdeal.LinearBlocks.final2 (V5 m ρ) c)

/-! ## The value claim -/

/-- From memories that agree on the five arguments both programs end with the same result: the kernel's, read off its
    run through the three regions, is the reference's composed term of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v25), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1, (hagree c).2.2.2.2]
  exact (Cert.Bridge.result_eq m ρ c (region0 m ρ c) (region1 m ρ c) (region2 m ρ c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
